-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v41)) (v1 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_v47) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_v46) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x768 : Shape := ⟨2, ![8192, 768]⟩
abbrev S_ : Shape := ⟨0, ![]⟩

class Facts : Prop where
  bcast_S_S8192x768 : S_.BroadcastsInDim S8192x768 (![] : Fin 0 → Fin S8192x768.rank)
  reducesTo_S8192x768_S_d0_1 : S8192x768.ReducesTo [0, 1] S_
  h_S_ : 0 < S_.numel

variable [Facts]

def fn {F : FTy → Type} [FloatOps F] (main_arg0 : FVec F S8192x768 .f32) (main_arg1 : FVec F S8192x768 .f32) : IVec S_ 1 :=
  let main_v0 : FVec F S8192x768 .f32 := Host.absf main_arg0
  let main_cst : FVec F S_ .f32 := constant S_ .f32 0x7F800000#32
  let main_v1 : FVec F S8192x768 .f32 := broadcastInDim S8192x768 ![] bcast_S_S8192x768 main_cst
  let main_v2 : IVec S8192x768 1 := cmpf .olt main_v0 main_v1
  let main_c : IVec S_ 1 := constantI S_ 1 1#1
  let main_v3 : IVec S_ 1 := (fun x v => Host.reduce IntOp.andi x v reducesTo_S8192x768_S_d0_1 h_S_) main_v2 main_c
  let main_v4 : FVec F S8192x768 .f32 := Host.absf main_arg1
  let main_cst_0 : FVec F S_ .f32 := constant S_ .f32 0x7F800000#32
  let main_v5 : FVec F S8192x768 .f32 := broadcastInDim S8192x768 ![] bcast_S_S8192x768 main_cst_0
  let main_v6 : IVec S8192x768 1 := cmpf .olt main_v4 main_v5
  let main_c_1 : IVec S_ 1 := constantI S_ 1 1#1
  let main_v7 : IVec S_ 1 := (fun x v => Host.reduce IntOp.andi x v reducesTo_S8192x768_S_d0_1 h_S_) main_v6 main_c_1
  let main_v8 : IVec S_ 1 := andi main_v3 main_v7
  main_v8
-- ==== Kernel.lean ====
abbrev S8192x768 : Shape := ⟨2, ![8192, 768]⟩
abbrev S_ : Shape := ⟨0, ![]⟩
abbrev S8192 : Shape := ⟨1, ![8192]⟩
abbrev S8192x1 : Shape := ⟨2, ![8192, 1]⟩
abbrev S4x1x8192 : Shape := ⟨3, ![4, 1, 8192]⟩
abbrev S2048x768 : Shape := ⟨2, ![2048, 768]⟩
abbrev S512x768 : Shape := ⟨2, ![512, 768]⟩
abbrev S2048x1 : Shape := ⟨2, ![2048, 1]⟩
abbrev S512x1 : Shape := ⟨2, ![512, 1]⟩
abbrev S1x1x512 : Shape := ⟨3, ![1, 1, 512]⟩
abbrev S2048x512 : Shape := ⟨2, ![2048, 512]⟩
abbrev S2048 : Shape := ⟨1, ![2048]⟩
abbrev S512 : Shape := ⟨1, ![512]⟩
abbrev S1x512 : Shape := ⟨2, ![1, 512]⟩
abbrev S4x8192 : Shape := ⟨2, ![4, 8192]⟩

abbrev nBuf : Space → Nat
  | .hbm => 82
  | .vmem => 13
  | .smem => 0
  | _ => 0

abbrev bufTy : (tb : Table) → Fin (tcTables nBuf tb) → BufTy
  | .hbm, ⟨0, _⟩ => ⟨S8192x768, .f32⟩
  | .hbm, ⟨1, _⟩ => ⟨S8192x768, .f32⟩
  | .hbm, ⟨2, _⟩ => ⟨S8192x768, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x1, .f32⟩
  | .hbm, ⟨7, _⟩ => ⟨S_, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x768, .f32⟩
  | .hbm, ⟨15, _⟩ => ⟨S_, .f32⟩
  | .hbm, ⟨16, _⟩ => ⟨S8192, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S8192x1, .f32⟩
  | .hbm, ⟨27, _⟩ => ⟨S4x1x8192, .f32⟩
  | .hbm, ⟨28, _⟩ => ⟨S8192, .f32⟩
  | .hbm, ⟨29, _⟩ => ⟨S4x8192, .f32⟩
  | .hbm, ⟨30, _⟩ => ⟨S_, .f32⟩
  | .hbm, ⟨31, _⟩ => ⟨S8192, .f32⟩
  | .hbm, ⟨32, _⟩ => ⟨S_, .f32⟩
  | .hbm, ⟨33, _⟩ => ⟨S8192, .f32⟩
  | .hbm, ⟨34, _⟩ => ⟨S8192, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S8192, .f32⟩
  | .hbm, ⟨43, _⟩ => ⟨S_, .f32⟩
  | .hbm, ⟨44, _⟩ => ⟨S8192, .f32⟩
  | .hbm, ⟨45, _⟩ => ⟨S8192, .f32⟩
  | .hbm, ⟨46, _⟩ => ⟨S_, .f32⟩
  | .hbm, ⟨47, _⟩ => ⟨S8192, .f32⟩
  | .hbm, ⟨48, _⟩ => ⟨S8192, .f32⟩
  | .hbm, ⟨49, _⟩ => ⟨S_, .f32⟩
  | .hbm, ⟨50, _⟩ => ⟨S8192, .f32⟩
  | .hbm, ⟨51, _⟩ => ⟨S8192, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S8192, .f32⟩
  | .hbm, ⟨60, _⟩ => ⟨S_, .f32⟩
  | .hbm, ⟨61, _⟩ => ⟨S8192, .f32⟩
  | .hbm, ⟨62, _⟩ => ⟨S8192, .f32⟩
  | .hbm, ⟨63, _⟩ => ⟨S_, .f32⟩
  | .hbm, ⟨64, _⟩ => ⟨S8192, .f32⟩
  | .hbm, ⟨65, _⟩ => ⟨S8192, .f32⟩
  | .hbm, ⟨66, _⟩ => ⟨S8192, .f32⟩
  | .hbm, ⟨67, _⟩ => ⟨S_, .f32⟩
  | .hbm, ⟨68, _⟩ => ⟨S8192, .f32⟩
  | .hbm, ⟨69, _⟩ => ⟨S8192, .f32⟩
  | .hbm, ⟨70, _⟩ => ⟨S8192, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S8192, .f32⟩
  | .hbm, ⟨75, _⟩ => ⟨S_, .f32⟩
  | .hbm, ⟨76, _⟩ => ⟨S8192, .f32⟩
  | .hbm, ⟨77, _⟩ => ⟨S8192, .f32⟩
  | .hbm, ⟨78, _⟩ => ⟨S8192, .f32⟩
  | .hbm, ⟨79, _⟩ => ⟨S_, .f32⟩
  | .hbm, ⟨80, _⟩ => ⟨S_, .f32⟩
  | .hbm, ⟨81, _⟩ => ⟨S_, .f32⟩
  | .local _ .vmem, ⟨0, _⟩ => ⟨S2048x768, .f32⟩
  | .local _ .vmem, ⟨1, _⟩ => ⟨S2048x768, .f32⟩
  | .local _ .vmem, ⟨2, _⟩ => ⟨S512x768, .f32⟩
  | .local _ .vmem, ⟨3, _⟩ => ⟨S512x768, .f32⟩
  | .local _ .vmem, ⟨4, _⟩ => ⟨S2048x1, .f32⟩
  | .local _ .vmem, ⟨5, _⟩ => ⟨S2048x1, .f32⟩
  | .local _ .vmem, ⟨6, _⟩ => ⟨S512x1, .f32⟩
  | .local _ .vmem, ⟨7, _⟩ => ⟨S512x1, .f32⟩
  | .local _ .vmem, ⟨8, _⟩ => ⟨S2048x1, .f32⟩
  | .local _ .vmem, ⟨9, _⟩ => ⟨S2048x1, .f32⟩
  | .local _ .vmem, ⟨10, _⟩ => ⟨S1x1x512, .f32⟩
  | .local _ .vmem, ⟨11, _⟩ => ⟨S1x1x512, .f32⟩
  | .local _ .vmem, ⟨12, _⟩ => ⟨S2048x1, .f32⟩
  | _, _ => ⟨S8192x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_call1_v0 : Ref sig .tc := ⟨.hbm, 8, rfl⟩
abbrev main_call1_v1 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_call2_v0 : Ref sig .tc := ⟨.hbm, 14, rfl⟩
abbrev main_call2_cst : Ref sig .tc := ⟨.hbm, 15, rfl⟩
abbrev main_call2_v1 : Ref sig .tc := ⟨.hbm, 16, rfl⟩
abbrev main_call2_v2 : Ref sig .tc := ⟨.hbm, 17, rfl⟩
abbrev main_v4 : Ref sig .tc := ⟨.hbm, 18, rfl⟩
abbrev main_cst_1 : Ref sig .tc := ⟨.hbm, 19, rfl⟩
abbrev main_call3_v0 : Ref sig .tc := ⟨.hbm, 20, rfl⟩
abbrev main_call3_v1 : Ref sig .tc := ⟨.hbm, 21, rfl⟩
abbrev main_v5 : Ref sig .tc := ⟨.hbm, 22, rfl⟩
abbrev main_cst_2 : Ref sig .tc := ⟨.hbm, 23, rfl⟩
abbrev main_v6 : Ref sig .tc := ⟨.hbm, 24, rfl⟩
abbrev main_v7 : Ref sig .tc := ⟨.hbm, 25, rfl⟩
abbrev main_v8_0 : Ref sig .tc := ⟨.hbm, 26, rfl⟩
abbrev main_v8_1 : Ref sig .tc := ⟨.hbm, 27, rfl⟩
abbrev main_v9 : Ref sig .tc := ⟨.hbm, 28, rfl⟩
abbrev main_v10 : Ref sig .tc := ⟨.hbm, 29, rfl⟩
abbrev main_cst_3 : Ref sig .tc := ⟨.hbm, 30, rfl⟩
abbrev main_v11 : Ref sig .tc := ⟨.hbm, 31, rfl⟩
abbrev main_cst_4 : Ref sig .tc := ⟨.hbm, 32, rfl⟩
abbrev main_v12 : Ref sig .tc := ⟨.hbm, 33, rfl⟩
abbrev main_v13 : Ref sig .tc := ⟨.hbm, 34, rfl⟩
abbrev main_cst_5 : Ref sig .tc := ⟨.hbm, 35, rfl⟩
abbrev main_v14 : Ref sig .tc := ⟨.hbm, 36, rfl⟩
abbrev main_cst_6 : Ref sig .tc := ⟨.hbm, 37, rfl⟩
abbrev main_v15 : Ref sig .tc := ⟨.hbm, 38, rfl⟩
abbrev main_cst_7 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_cst_8 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_cst_9 : Ref sig .tc := ⟨.hbm, 49, rfl⟩
abbrev main_v24 : Ref sig .tc := ⟨.hbm, 50, rfl⟩
abbrev main_v25 : Ref sig .tc := ⟨.hbm, 51, rfl⟩
abbrev main_cst_10 : Ref sig .tc := ⟨.hbm, 52, rfl⟩
abbrev main_v26 : Ref sig .tc := ⟨.hbm, 53, rfl⟩
abbrev main_cst_11 : Ref sig .tc := ⟨.hbm, 54, rfl⟩
abbrev main_v27 : Ref sig .tc := ⟨.hbm, 55, rfl⟩
abbrev main_cst_12 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_cst_13 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_cst_14 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_cst_15 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_cst_16 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_cst_17 : Ref sig .tc := ⟨.hbm, 79, rfl⟩
abbrev main_v46 : Ref sig .tc := ⟨.hbm, 80, rfl⟩
abbrev main_v47 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 16], ![false, false]⟩

def k0_cond2 (i : grid0.Coords) : BitVec 1 :=
  let arg1 : BitVec 32 := BitVec.ofNat 32 (i 1).val
  let c15_i32 : BitVec 32 := 15#32
  let v27 : BitVec 1 := Scalar.cmpi .eq arg1 c15_i32
  let v28 : BitVec 32 := Scalar.extui v27
  let c0_i32_17 : BitVec 32 := 0#32
  let v29 : BitVec 1 := Scalar.cmpi .ne v28 c0_i32_17
  v29

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S2048x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  reducesTo_S8192x768_S8192_d1 : S8192x768.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S2048x768_S2048x768_0_0 : ∀ a, (![0, 0] : Fin 2 → Nat) a + S2048x768.size a ≤ S2048x768.size a
  h_S2048x768 : 0 < S2048x768.numel
  broadcasts_S2048x1_S2048x768 : S2048x1.Broadcasts S2048x768
  bitsLt_bf16_f32 : FTy.bits .bf16 < FTy.bits .f32
  inb_S512x768_S512x768_0_0 : ∀ a, (![0, 0] : Fin 2 → Nat) a + S512x768.size a ≤ S512x768.size a
  h_S512x768 : 0 < S512x768.numel
  inb_S512x1_S512x1_0_0 : ∀ a, (![0, 0] : Fin 2 → Nat) a + S512x1.size a ≤ S512x1.size a
  h_S512x1 : 0 < S512x1.numel
  shapeCasts_S512x1_S512x1 : S512x1.ShapeCasts S512x1
  broadcasts_S512x1_S512x768 : S512x1.Broadcasts S512x768
  reduces_S2048x512_S2048 : S2048x512.Reduces [1] S2048
  shapeCasts_S2048_S2048x1 : S2048.ShapeCasts S2048x1
  reduces_S2048x512_S512 : S2048x512.Reduces [0] S512
  shapeCasts_S512_S1x512 : S512.ShapeCasts S1x512
  shapeCasts_S1x512_S1x1x512 : S1x512.ShapeCasts S1x1x512
  inb_S1x1x512_S1x1x512_0_0_0 : ∀ a, (![0, 0, 0] : Fin 3 → Nat) a + S1x1x512.size a ≤ S1x1x512.size a
  h_S1x1x512 : 0 < S1x1x512.numel
  shapeCasts_S8192x1_S8192 : S8192x1.ShapeCasts S8192
  shapeCasts_S4x1x8192_S4x8192 : S4x1x8192.ShapeCasts S4x8192
  reducesTo_S4x8192_S8192_d0 : S4x8192.ReducesTo [0] S8192
  bcast_S_S8192 : S_.BroadcastsInDim S8192 (![] : Fin 0 → Fin S8192.rank)
  reducesTo_S8192_S_d0 : S8192.ReducesTo [0] S_
  dot_S2048x768_S512x768_S2048x512_1_1_0_0_n_n_wf : DotDims.WF S2048x768 S512x768 S2048x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x768.size a ≤ S8192x768.size a
  hwx0_0 : ∀ i : grid0.Coords, EltTy.bits .f32 = 32 ∨ (Rect.block (s := S8192x768) S2048x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x768.size a ≤ S8192x768.size a
  hwx0_1 : ∀ i : grid0.Coords, EltTy.bits .f32 = 32 ∨ (Rect.block (s := S8192x768) S512x768.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1.size a ≤ S8192x1.size a
  hwx0_2 : ∀ i : grid0.Coords, EltTy.bits .f32 = 32 ∨ (Rect.block (s := S8192x1) S2048x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1.size a ≤ S8192x1.size a
  hwx0_3 : ∀ i : grid0.Coords, EltTy.bits .f32 = 32 ∨ (Rect.block (s := S8192x1) S512x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x1.size a ≤ S8192x1.size a
  hwx0_4 : ∀ i : grid0.Coords, EltTy.bits .f32 = 32 ∨ (Rect.block (s := S8192x1) S2048x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x512.size a ≤ S4x1x8192.size a
  hwx0_5 : ∀ i : grid0.Coords, EltTy.bits .f32 = 32 ∨ (Rect.block (s := S4x1x8192) S1x1x512.size (cc0_transform_5 i) (hinb0_5 i)).WholeWords (EltTy.packing .f32)

variable [Facts₀]

def dot_S2048x768_S512x768_S2048x512_1_1_0_0_n_n : DotDims S2048x768 S512x768 S2048x512 where
  lhsContracting := [1]
  rhsContracting := [1]
  lhsNonContracting := [0]
  rhsNonContracting := [0]
  lhsBatch := []
  rhsBatch := []
  wf := dot_S2048x768_S512x768_S2048x512_1_1_0_0_n_n_wf

abbrev win0_0 : Pipeline.Window sig grid0 :=
  Pipeline.Window.ofSpec (Memref.whole main_arg0) S2048x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S2048x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S512x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v8_0) S2048x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v8_1) S1x1x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun i => !(k0_cond2 i == 1#1) | 5 => fun _ => false | ⟨_ + 6, h⟩ => absurd h (Nat.not_lt.2 (Nat.le_add_left _ _))

class Facts : Prop extends Facts₀ where

variable [Facts]
-- ==== ReferenceIdeal.lean ====
abbrev S8192x768 : Shape := ⟨2, ![8192, 768]⟩
abbrev S_ : Shape := ⟨0, ![]⟩
abbrev S8192 : Shape := ⟨1, ![8192]⟩
abbrev S8192x1 : Shape := ⟨2, ![8192, 1]⟩
abbrev S8192x8192 : Shape := ⟨2, ![8192, 8192]⟩

abbrev nBuf : Space → Nat
  | .hbm => 79
  | .vmem => 0
  | .smem => 0
  | _ => 0

abbrev bufTy : (tb : Table) → Fin (tcTables nBuf tb) → BufTy
  | .hbm, ⟨0, _⟩ => ⟨S8192x768, .f32⟩
  | .hbm, ⟨1, _⟩ => ⟨S8192x768, .f32⟩
  | .hbm, ⟨2, _⟩ => ⟨S8192x768, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x1, .f32⟩
  | .hbm, ⟨7, _⟩ => ⟨S_, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S8192x768, .f32⟩
  | .hbm, ⟨12, _⟩ => ⟨S8192x768, .f32⟩
  | .hbm, ⟨13, _⟩ => ⟨S8192x768, .f32⟩
  | .hbm, ⟨14, _⟩ => ⟨S_, .f32⟩
  | .hbm, ⟨15, _⟩ => ⟨S8192, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x768, .f32⟩
  | .hbm, ⟨23, _⟩ => ⟨S8192x768, .f32⟩
  | .hbm, ⟨24, _⟩ => ⟨S8192x8192, .f32⟩
  | .hbm, ⟨25, _⟩ => ⟨S_, .f32⟩
  | .hbm, ⟨26, _⟩ => ⟨S8192, .f32⟩
  | .hbm, ⟨27, _⟩ => ⟨S_, .f32⟩
  | .hbm, ⟨28, _⟩ => ⟨S8192, .f32⟩
  | .hbm, ⟨29, _⟩ => ⟨S_, .f32⟩
  | .hbm, ⟨30, _⟩ => ⟨S8192, .f32⟩
  | .hbm, ⟨31, _⟩ => ⟨S8192, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S8192, .f32⟩
  | .hbm, ⟨40, _⟩ => ⟨S_, .f32⟩
  | .hbm, ⟨41, _⟩ => ⟨S8192, .f32⟩
  | .hbm, ⟨42, _⟩ => ⟨S8192, .f32⟩
  | .hbm, ⟨43, _⟩ => ⟨S_, .f32⟩
  | .hbm, ⟨44, _⟩ => ⟨S8192, .f32⟩
  | .hbm, ⟨45, _⟩ => ⟨S8192, .f32⟩
  | .hbm, ⟨46, _⟩ => ⟨S_, .f32⟩
  | .hbm, ⟨47, _⟩ => ⟨S8192, .f32⟩
  | .hbm, ⟨48, _⟩ => ⟨S8192, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S8192, .f32⟩
  | .hbm, ⟨57, _⟩ => ⟨S_, .f32⟩
  | .hbm, ⟨58, _⟩ => ⟨S8192, .f32⟩
  | .hbm, ⟨59, _⟩ => ⟨S8192, .f32⟩
  | .hbm, ⟨60, _⟩ => ⟨S_, .f32⟩
  | .hbm, ⟨61, _⟩ => ⟨S8192, .f32⟩
  | .hbm, ⟨62, _⟩ => ⟨S8192, .f32⟩
  | .hbm, ⟨63, _⟩ => ⟨S8192, .f32⟩
  | .hbm, ⟨64, _⟩ => ⟨S_, .f32⟩
  | .hbm, ⟨65, _⟩ => ⟨S8192, .f32⟩
  | .hbm, ⟨66, _⟩ => ⟨S8192, .f32⟩
  | .hbm, ⟨67, _⟩ => ⟨S8192, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S8192, .f32⟩
  | .hbm, ⟨72, _⟩ => ⟨S_, .f32⟩
  | .hbm, ⟨73, _⟩ => ⟨S8192, .f32⟩
  | .hbm, ⟨74, _⟩ => ⟨S8192, .f32⟩
  | .hbm, ⟨75, _⟩ => ⟨S8192, .f32⟩
  | .hbm, ⟨76, _⟩ => ⟨S_, .f32⟩
  | .hbm, ⟨77, _⟩ => ⟨S_, .f32⟩
  | .hbm, ⟨78, _⟩ => ⟨S_, .f32⟩
  | _, _ => ⟨S8192x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_call1_v0 : Ref sig .tc := ⟨.hbm, 8, rfl⟩
abbrev main_call1_v1 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_call2_v0 : Ref sig .tc := ⟨.hbm, 13, rfl⟩
abbrev main_call2_cst : Ref sig .tc := ⟨.hbm, 14, rfl⟩
abbrev main_call2_v1 : Ref sig .tc := ⟨.hbm, 15, rfl⟩
abbrev main_call2_v2 : Ref sig .tc := ⟨.hbm, 16, rfl⟩
abbrev main_v4 : Ref sig .tc := ⟨.hbm, 17, rfl⟩
abbrev main_cst_0 : Ref sig .tc := ⟨.hbm, 18, rfl⟩
abbrev main_call3_v0 : Ref sig .tc := ⟨.hbm, 19, rfl⟩
abbrev main_call3_v1 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_cst_1 : Ref sig .tc := ⟨.hbm, 25, rfl⟩
abbrev main_v9 : Ref sig .tc := ⟨.hbm, 26, rfl⟩
abbrev main_cst_2 : Ref sig .tc := ⟨.hbm, 27, rfl⟩
abbrev main_v10 : Ref sig .tc := ⟨.hbm, 28, rfl⟩
abbrev main_cst_3 : Ref sig .tc := ⟨.hbm, 29, rfl⟩
abbrev main_v11 : Ref sig .tc := ⟨.hbm, 30, rfl⟩
abbrev main_v12 : Ref sig .tc := ⟨.hbm, 31, rfl⟩
abbrev main_cst_4 : Ref sig .tc := ⟨.hbm, 32, rfl⟩
abbrev main_v13 : Ref sig .tc := ⟨.hbm, 33, rfl⟩
abbrev main_cst_5 : Ref sig .tc := ⟨.hbm, 34, rfl⟩
abbrev main_v14 : Ref sig .tc := ⟨.hbm, 35, rfl⟩
abbrev main_cst_6 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_cst_7 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_cst_8 : Ref sig .tc := ⟨.hbm, 46, rfl⟩
abbrev main_v23 : Ref sig .tc := ⟨.hbm, 47, rfl⟩
abbrev main_v24 : Ref sig .tc := ⟨.hbm, 48, rfl⟩
abbrev main_cst_9 : Ref sig .tc := ⟨.hbm, 49, rfl⟩
abbrev main_v25 : Ref sig .tc := ⟨.hbm, 50, rfl⟩
abbrev main_cst_10 : Ref sig .tc := ⟨.hbm, 51, rfl⟩
abbrev main_v26 : Ref sig .tc := ⟨.hbm, 52, rfl⟩
abbrev main_cst_11 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_cst_12 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_cst_13 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_cst_14 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_cst_15 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_cst_16 : Ref sig .tc := ⟨.hbm, 76, rfl⟩
abbrev main_v45 : Ref sig .tc := ⟨.hbm, 77, rfl⟩
abbrev main_v46 : Ref sig .tc := ⟨.hbm, 78, rfl⟩

abbrev nD : Nat := 1
abbrev τ : Topo := Topo.v7x

variable {F : FTy → Type} [FloatOps F]

class Facts₀ : Prop where
  reducesTo_S8192x768_S8192_d1 : S8192x768.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x768_0_1 : S8192x1.BroadcastsInDim S8192x768 (![0, 1] : Fin 2 → Fin S8192x768.rank)
  reducesTo_S8192x8192_S8192_d1 : S8192x8192.ReducesTo [1] S8192
  reducesTo_S8192x8192_S8192_d0 : S8192x8192.ReducesTo [0] S8192
  bcast_S_S8192 : S_.BroadcastsInDim S8192 (![] : Fin 0 → Fin S8192.rank)
  reducesTo_S8192_S_d0 : S8192.ReducesTo [0] S_
  dot_S8192x768_S8192x768_S8192x8192_1_1_0_0_n_n_wf : DotDims.WF S8192x768 S8192x768 S8192x8192 [1] [1] [0] [0] [] []

variable [Facts₀]

def dot_S8192x768_S8192x768_S8192x8192_1_1_0_0_n_n : DotDims S8192x768 S8192x768 S8192x8192 where
  lhsContracting := [1]
  rhsContracting := [1]
  lhsNonContracting := [0]
  rhsNonContracting := [0]
  lhsBatch := []
  rhsBatch := []
  wf := dot_S8192x768_S8192x768_S8192x8192_1_1_0_0_n_n_wf

class Facts : Prop extends Facts₀ where

variable [Facts]
-- ==== Proof.CosineSpec.lean ====
/-
  The mathematics of the certificate, over plain index types.

  Two arrays of 8192 rows of length 768. Each row is divided by its clipped length
  `max ε ‖row‖`; `sim n m` is the inner product of normalised row `n` of the first array with
  normalised row `m` of the second; `rowSup n` is the maximum of `sim n ·`, `colSup m` the maximum of
  `sim · m`. One program divides each entry by the clipped length, the other multiplies it by the
  reciprocal `1 / max ε ‖row‖`: since the clipped length is at least `ε > 0` the two agree on every
  extended real (`mul_recip`), so no finiteness is used. One program takes the maxima whole, the other
  tile by tile (row tiles of 2048, column tiles of 512): `max` is associative, commutative and idempotent,
  and a maximum is determined by its upper bounds, which is how every regrouping below is proved.
-/
import Idealize.ShloMosaic.PureOps.Ideal
import Idealize.ShloMosaic.PureOps.Ideal.Laws
import Idealize.ShloMosaic.Lib.ValueIdx

noncomputable section

namespace Cert.CosineSpec

open Idealize.ShloMosaic

/-- An array of 8192 rows of length 768. -/
abbrev Rows := Fin 8192 → Fin 768 → EReal

/-- An [8192, 768] array of extended reals read as its rows. -/
def rowsOf (a : (⟨2, ![8192, 768]⟩ : Shape).Idx → EReal) : Rows := fun n d => a (ValueIdx.ix2 n d)

/-- The clipping floor: the float literal both programs carry (about 1e-8). -/
def eps : EReal := Ideal.ofBits .f32 0x322BCC77#32

/-- The squared length of row `n`, as both programs sum it: the zero literal plus the sum of squares. -/
def sumSq (x : Rows) (n : Fin 8192) : EReal :=
  Ideal.ofBits .f32 0x00000000#32 + ∑ d : Fin 768, x n d * x n d

/-- The clipped length of row `n`: `max ε √(sum of squares)`. -/
def clipNorm (x : Rows) (n : Fin 8192) : EReal := max eps (Ideal.sqrt (sumSq x n))

/-- Cosine similarity of row `n` of `x` and row `m` of `y`, each entry DIVIDED by its row's clipped length. -/
def sim (x y : Rows) (n m : Fin 8192) : EReal :=
  ∑ d : Fin 768, Ideal.div (x n d) (clipNorm x n) * Ideal.div (y m d) (clipNorm y m)

/-- The same with each entry MULTIPLIED by the reciprocal of its row's clipped length. -/
def simRecip (x y : Rows) (n m : Fin 8192) : EReal :=
  ∑ d : Fin 768, (x n d * Ideal.div 1 (clipNorm x n)) * (y m d * Ideal.div 1 (clipNorm y m))

/-- The best match of row `n`: the maximum over all columns. -/
def rowSup (x y : Rows) (n : Fin 8192) : EReal := (Finset.univ : Finset (Fin 8192)).fold max ⊥ (fun m => sim x y n m)

/-- The best match of column `m`: the maximum over all rows. -/
def colSup (x y : Rows) (m : Fin 8192) : EReal := (Finset.univ : Finset (Fin 8192)).fold max ⊥ (fun n => sim x y n m)

/-! ## The tiling -/

/-- Row `r` of row tile `i` (tiles of 2048 rows). -/
def rowAt (i : Fin 4) (r : Fin 2048) : Fin 8192 := ⟨2048 * i.val + r.val, by omega⟩

/-- Column `k` of column tile `j` (tiles of 512 columns). -/
def colAt (j : Fin 16) (k : Fin 512) : Fin 8192 := ⟨512 * j.val + k.val, by omega⟩

/-- The maximum of row `n` over the column tiles `0 … j`. -/
def rowSupUpTo (x y : Rows) (n : Fin 8192) (j : ℕ) : EReal :=
  ((Finset.univ : Finset (Fin 8192)).filter fun m => m.val < 512 * (j + 1)).fold max ⊥ (fun m => sim x y n m)

/-- The maximum of row `n` over column tile `j` alone. -/
def rowTileSup (x y : Rows) (n : Fin 8192) (j : Fin 16) : EReal :=
  (Finset.univ : Finset (Fin 512)).fold max ⊥ (fun k => sim x y n (colAt j k))

/-- The maximum of column `m` over row tile `i` alone. -/
def colTileSup (x y : Rows) (i : Fin 4) (m : Fin 8192) : EReal :=
  (Finset.univ : Finset (Fin 2048)).fold max ⊥ (fun r => sim x y (rowAt i r) m)

/-! ## The literals -/

theorem negInf_eq_bot : Ideal.ofBits .f32 0xFF800000#32 = (⊥ : EReal) := by
  simp [Ideal.ofBits, Ideal.ieee]

theorem eps_pos : 0 < eps := by
  unfold eps
  simp [Ideal.ofBits, Ideal.ieee]
  positivity

theorem clipNorm_ne_zero (x : Rows) (n : Fin 8192) : clipNorm x n ≠ 0 :=
  (lt_of_lt_of_le eps_pos (le_max_left _ _)).ne'

/-! ## Reciprocal against quotient -/

/-- Off zero, multiplying by the reciprocal is dividing, on every extended real. -/
theorem mul_div_one {c : EReal} (hc : c ≠ 0) (a : EReal) : a * Ideal.div 1 c = Ideal.div a c := by
  unfold Ideal.div
  rw [if_neg hc, if_neg hc, one_mul]

theorem simRecip_eq_sim (x y : Rows) (n m : Fin 8192) : simRecip x y n m = sim x y n m := by
  unfold simRecip sim
  refine Finset.sum_congr rfl fun d _ => ?_
  rw [mul_div_one (clipNorm_ne_zero x n), mul_div_one (clipNorm_ne_zero y m)]

/-! ## Maxima by their upper bounds -/

theorem fold_max_bot_le {ι : Type*} (s : Finset ι) (f : ι → EReal) (z : EReal) :
    s.fold max ⊥ f ≤ z ↔ ∀ a ∈ s, f a ≤ z := by
  rw [Finset.fold_max_le]
  exact ⟨fun h => h.2, fun h => ⟨bot_le, h⟩⟩

theorem rowSup_le_iff (x y : Rows) (n : Fin 8192) (z : EReal) : rowSup x y n ≤ z ↔ ∀ m, sim x y n m ≤ z := by
  unfold rowSup; rw [fold_max_bot_le]; simp

theorem colSup_le_iff (x y : Rows) (m : Fin 8192) (z : EReal) : colSup x y m ≤ z ↔ ∀ n, sim x y n m ≤ z := by
  unfold colSup; rw [fold_max_bot_le]; simp

theorem rowSupUpTo_le_iff (x y : Rows) (n : Fin 8192) (j : ℕ) (z : EReal) :
    rowSupUpTo x y n j ≤ z ↔ ∀ m : Fin 8192, m.val < 512 * (j + 1) → sim x y n m ≤ z := by
  unfold rowSupUpTo; rw [fold_max_bot_le]; simp

theorem rowTileSup_le_iff (x y : Rows) (n : Fin 8192) (j : Fin 16) (z : EReal) :
    rowTileSup x y n j ≤ z ↔ ∀ k : Fin 512, sim x y n (colAt j k) ≤ z := by
  unfold rowTileSup; rw [fold_max_bot_le]; simp

theorem colTileSup_le_iff (x y : Rows) (i : Fin 4) (m : Fin 8192) (z : EReal) :
    colTileSup x y i m ≤ z ↔ ∀ r : Fin 2048, sim x y (rowAt i r) m ≤ z := by
  unfold colTileSup; rw [fold_max_bot_le]; simp

/-- Every column lies in exactly one column tile. -/
theorem exists_colAt (m : Fin 8192) : ∃ (j : Fin 16) (k : Fin 512), m = colAt j k :=
  ⟨⟨m.val / 512, by omega⟩, ⟨m.val % 512, by omega⟩, Fin.ext (by simp only [colAt]; omega)⟩

/-- Every row lies in exactly one row tile. -/
theorem exists_rowAt (n : Fin 8192) : ∃ (i : Fin 4) (r : Fin 2048), n = rowAt i r :=
  ⟨⟨n.val / 2048, by omega⟩, ⟨n.val % 2048, by omega⟩, Fin.ext (by simp only [rowAt]; omega)⟩

/-- The first column tile: the running maximum starts from the bottom element. -/
theorem rowSupUpTo_zero (x y : Rows) (n : Fin 8192) :
    rowSupUpTo x y n 0 = max ⊥ (rowTileSup x y n 0) := by
  refine eq_of_forall_ge_iff fun z => ?_
  rw [max_le_iff, rowSupUpTo_le_iff, rowTileSup_le_iff]
  constructor
  · intro h; exact ⟨bot_le, fun k => h _ (by simp only [colAt]; omega)⟩
  · rintro ⟨-, h⟩ m hm
    obtain ⟨j, k, rfl⟩ := exists_colAt m
    have hj : j = 0 := Fin.ext (by simp only [colAt] at hm; omega)
    subst hj; exact h k

/-- One more column tile: the running maximum joined with that tile's. -/
theorem rowSupUpTo_succ (x y : Rows) (n : Fin 8192) (j : ℕ) (hj : j + 1 < 16) :
    rowSupUpTo x y n (j + 1) = max (rowSupUpTo x y n j) (rowTileSup x y n ⟨j + 1, hj⟩) := by
  refine eq_of_forall_ge_iff fun z => ?_
  rw [max_le_iff, rowSupUpTo_le_iff, rowSupUpTo_le_iff, rowTileSup_le_iff]
  constructor
  · intro h; exact ⟨fun m hm => h m (by omega), fun k => h _ (by simp only [colAt]; omega)⟩
  · rintro ⟨h1, h2⟩ m hm
    by_cases hlt : m.val < 512 * (j + 1)
    · exact h1 m hlt
    · obtain ⟨j', k, rfl⟩ := exists_colAt m
      have hj' : j' = ⟨j + 1, hj⟩ := Fin.ext (by show j'.val = j + 1; simp only [colAt] at hm hlt; omega)
      subst hj'; exact h2 k

/-- After the last column tile the running maximum is the row's. -/
theorem rowSupUpTo_last (x y : Rows) (n : Fin 8192) : rowSupUpTo x y n 15 = rowSup x y n := by
  refine eq_of_forall_ge_iff fun z => ?_
  rw [rowSupUpTo_le_iff, rowSup_le_iff]
  exact ⟨fun h m => h m (by omega), fun h m _ => h m⟩

/-- A column's maximum is the maximum over the four row tiles of the tiles' maxima. -/
theorem colSup_eq_fold_tiles (x y : Rows) (m : Fin 8192) :
    colSup x y m = (Finset.univ : Finset (Fin 4)).fold max ⊥ (fun i => colTileSup x y i m) := by
  refine eq_of_forall_ge_iff fun z => ?_
  rw [colSup_le_iff, fold_max_bot_le]
  simp only [Finset.mem_univ, forall_true_left, colTileSup_le_iff]
  constructor
  · intro h i r; exact h _
  · intro h n
    obtain ⟨i, r, rfl⟩ := exists_rowAt n
    exact h i r

end Cert.CosineSpec

end
-- ==== Proof.RefSide.lean ====
/-
  The reference program read as the mathematics of CosineSpec.

  The reference divides every entry of each array by its row's clipped length, takes all inner products of the
  normalised rows, then the maximum of each row and of each column of that matrix, and sends each vector of maxima
  through the same scalar tail. Here: the tail as one function of the vector of maxima (both results are that
  function, of the row maxima and of the column maxima), an entry of the matrix as sim, a row maximum as
  rowSup and a column maximum as colSup.
-/
import proofs.«153582_j18339510354596_2_alg».proof.Proof.Gen.ReferenceIdeal.Read
import proofs.«153582_j18339510354596_2_alg».proof.Proof.CosineSpec
import Idealize.ShloMosaic.Lib.ValueIdx
import Idealize.ShloMosaic.PureOps.Ideal.Laws

noncomputable section

namespace Cert.RefSide

open Cert.ReferenceIdeal Cert.ReferenceIdeal.Read Cert.CosineSpec Idealize.ShloMosaic Idealize.ShloMosaic.ValueIdx

/-! ## The scalar tail -/

/-- The scalar tail both results share, as ONE function of the vector of maxima C: with
    t = (0.5 * log 0.6366… - log 0.8) - (1 + C)² / 1.28 entrywise, the result is -(0 + Σ (exp t / 0.8) * t). -/
def tail (C : FVec Ideal S8192 .f32) : FVec Ideal S_ .f32 :=
  Host.negf (F := Ideal)
    (Host.reduceAdd (F := Ideal)
      (mulf (F := Ideal)
        (Host.divf (F := Ideal)
          (Host.exp (F := Ideal)
            (subf (F := Ideal)
              (broadcastInDim S8192 ![] Gen.bcast_S_S8192
                (id (subf (F := Ideal)
                  (mulf (F := Ideal) (constant (F := Ideal) S_ .f32 0x3F000000#32)
                    (Host.log (F := Ideal) (constant (F := Ideal) S_ .f32 0x3F22F983#32)))
                  (Host.log (F := Ideal) (constant (F := Ideal) S_ .f32 0x3F4CCCCD#32)))))
              (Host.divf (F := Ideal)
                (mulf (F := Ideal)
                  (addf (F := Ideal) (broadcastInDim S8192 ![] Gen.bcast_S_S8192 (constant (F := Ideal) S_ .f32 0x3F800000#32)) C)
                  (addf (F := Ideal) (broadcastInDim S8192 ![] Gen.bcast_S_S8192 (constant (F := Ideal) S_ .f32 0x3F800000#32)) C))
                (broadcastInDim S8192 ![] Gen.bcast_S_S8192 (constant (F := Ideal) S_ .f32 0x3FA3D70A#32)))))
          (broadcastInDim S8192 ![] Gen.bcast_S_S8192 (constant (F := Ideal) S_ .f32 0x3F4CCCCD#32)))
        (subf (F := Ideal)
          (broadcastInDim S8192 ![] Gen.bcast_S_S8192
            (id (subf (F := Ideal)
              (mulf (F := Ideal) (constant (F := Ideal) S_ .f32 0x3F000000#32)
                (Host.log (F := Ideal) (constant (F := Ideal) S_ .f32 0x3F22F983#32)))
              (Host.log (F := Ideal) (constant (F := Ideal) S_ .f32 0x3F4CCCCD#32)))))
          (Host.divf (F := Ideal)
            (mulf (F := Ideal)
              (addf (F := Ideal) (broadcastInDim S8192 ![] Gen.bcast_S_S8192 (constant (F := Ideal) S_ .f32 0x3F800000#32)) C)
              (addf (F := Ideal) (broadcastInDim S8192 ![] Gen.bcast_S_S8192 (constant (F := Ideal) S_ .f32 0x3F800000#32)) C))
            (broadcastInDim S8192 ![] Gen.bcast_S_S8192 (constant (F := Ideal) S_ .f32 0x3FA3D70A#32)))))
      (constant (F := Ideal) S_ .f32 0x00000000#32) Gen.reducesTo_S8192_S_d0 Gen.h_S_)

/-- The first result is the tail of the row maxima. -/
theorem v40_eq_tail (x0 x1 : FVec Ideal S8192x768 .f32) :
    val_main_v40 (F := Ideal) x0 x1 = tail (val_main_v9 (F := Ideal) x0 x1) := by
  unfold tail val_main_v40 val_main_v39 val_main_v38 val_main_v37 val_main_v36 val_main_v35 val_main_v22 val_main_v21
    val_main_v20 val_main_v19 val_main_v18 val_main_v17 val_main_v16 val_main_v15 val_main_v14 val_main_v13 val_main_v12
    val_main_v11 val_main_cst_3 val_main_cst_4 val_main_cst_5 val_main_cst_6 val_main_cst_7 val_main_cst_13 val_main_cst_14
  rfl

/-- The second result is the same tail, of the column maxima. -/
theorem v46_eq_tail (x0 x1 : FVec Ideal S8192x768 .f32) :
    val_main_v46 (F := Ideal) x0 x1 = tail (val_main_v10 (F := Ideal) x0 x1) := by
  unfold tail val_main_v46 val_main_v45 val_main_v44 val_main_v43 val_main_v42 val_main_v41 val_main_v34 val_main_v33
    val_main_v32 val_main_v31 val_main_v30 val_main_v29 val_main_v28 val_main_v27 val_main_v26 val_main_v25 val_main_v24
    val_main_v23 val_main_cst_8 val_main_cst_9 val_main_cst_10 val_main_cst_11 val_main_cst_12 val_main_cst_15 val_main_cst_16
  rfl

/-! ## The normalised rows and their inner products -/

/-- The clipped length of row n of the first array, as the reference computes it. -/
theorem v1_apply (x0 : FVec Ideal S8192x768 .f32) (n : Fin 8192) (z : Fin 1) :
    val_main_v1 (F := Ideal) x0 (ix2 n z) = clipNorm (rowsOf x0) n := by
  rw [val_main_v1_apply, val_main_call1_v1_apply, val_main_call1_v0_apply, val_main_cst_apply,
    val_main_v0_apply, val_main_call0_v2_apply, val_main_call0_v1_apply, val_main_call0_cst_apply]
  simp only [val_main_call0_v0_apply, Ideal.maximumf_def, Ideal.hostUnary_sqrt_def, Ideal.ofBits_def, Ideal.mulf_def]
  unfold clipNorm sumSq eps rowsOf
  refine congrArg (max _) (congrArg Ideal.sqrt (congrArg (_ + ·) (Finset.sum_congr rfl fun k _ => ?_)))
  rw [show idx_main_call0_v1 (idx_main_call0_v2 (ix2 n z)) k = ix2 n k from
    funext fun a => Fin.ext (by match a with | ⟨0, _⟩ => rfl | ⟨1, _⟩ => rfl)]

/-- An entry of the first array divided by its row's clipped length. -/
theorem v3_apply (x0 : FVec Ideal S8192x768 .f32) (n : Fin 8192) (d : Fin 768) :
    val_main_v3 (F := Ideal) x0 (ix2 n d) = Ideal.div (rowsOf x0 n d) (clipNorm (rowsOf x0) n) := by
  rw [val_main_v3_apply, val_main_v2_apply,
    show idx_main_v2 (ix2 n d) = ix2 n (0 : Fin 1) from
      funext fun a => Fin.ext (by match a with | ⟨0, _⟩ => rfl | ⟨1, _⟩ => rfl),
    v1_apply, Ideal.hostDivf_def]
  rfl

/-- The clipped length of row m of the second array. -/
theorem v5_apply (x1 : FVec Ideal S8192x768 .f32) (m : Fin 8192) (z : Fin 1) :
    val_main_v5 (F := Ideal) x1 (ix2 m z) = clipNorm (rowsOf x1) m := by
  rw [val_main_v5_apply, val_main_call3_v1_apply, val_main_call3_v0_apply, val_main_cst_0_apply,
    val_main_v4_apply, val_main_call2_v2_apply, val_main_call2_v1_apply, val_main_call2_cst_apply]
  simp only [val_main_call2_v0_apply, Ideal.maximumf_def, Ideal.hostUnary_sqrt_def, Ideal.ofBits_def, Ideal.mulf_def]
  unfold clipNorm sumSq eps rowsOf
  refine congrArg (max _) (congrArg Ideal.sqrt (congrArg (_ + ·) (Finset.sum_congr rfl fun k _ => ?_)))
  rw [show idx_main_call2_v1 (idx_main_call2_v2 (ix2 m z)) k = ix2 m k from
    funext fun a => Fin.ext (by match a with | ⟨0, _⟩ => rfl | ⟨1, _⟩ => rfl)]

/-- An entry of the second array divided by its row's clipped length. -/
theorem v7_apply (x1 : FVec Ideal S8192x768 .f32) (m : Fin 8192) (d : Fin 768) :
    val_main_v7 (F := Ideal) x1 (ix2 m d) = Ideal.div (rowsOf x1 m d) (clipNorm (rowsOf x1) m) := by
  rw [val_main_v7_apply, val_main_v6_apply,
    show idx_main_v6 (ix2 m d) = ix2 m (0 : Fin 1) from
      funext fun a => Fin.ext (by match a with | ⟨0, _⟩ => rfl | ⟨1, _⟩ => rfl),
    v5_apply, Ideal.hostDivf_def]
  rfl

/-- Entry (n, m) of the matrix of inner products is the cosine similarity of row n and row m. -/
theorem v8_apply (x0 x1 : FVec Ideal S8192x768 .f32) (n m : Fin 8192) :
    val_main_v8 (F := Ideal) x0 x1 (ix2 n m) = sim (rowsOf x0) (rowsOf x1) n m := by
  rw [val_main_v8_apply]
  unfold sim
  refine Finset.sum_congr rfl fun k _ => ?_
  rw [show lidx_main_v8 (ix2 n m) k = ix2 n k from
      funext fun a => Fin.ext (by match a with | ⟨0, _⟩ => rfl | ⟨1, _⟩ => rfl),
    show ridx_main_v8 (ix2 n m) k = ix2 m k from
      funext fun a => Fin.ext (by match a with | ⟨0, _⟩ => rfl | ⟨1, _⟩ => rfl),
    v3_apply, v7_apply]

/-! ## The maxima -/

/-- A maximum-reduce from -∞ over the second axis, read at row n: the maximum of that row's entries. -/
theorem reduceMax_row (y : FVec Ideal S8192x8192 .f32) (n : Fin 8192) :
    Host.reduce (FloatOps.maximumf (F := Ideal) (φ := .f32)) y (val_main_cst_1 (F := Ideal))
        Gen.reducesTo_S8192x8192_S8192_d1 Gen.h_S_ (ix1 n)
      = (Finset.univ : Finset (Fin 8192)).fold max ⊥ (fun m => y (ix2 n m)) := by
  rw [Host.reduce_eq_fold_single (FloatOps.maximumf (F := Ideal) (φ := .f32)) y _ Gen.reducesTo_S8192x8192_S8192_d1
      (by decide) Gen.h_S_ (ix1 n),
    val_main_cst_1_apply, Ideal.ofBits_def, negInf_eq_bot]
  refine Finset.fold_congr fun k _ => ?_
  exact congrArg y (funext fun a => Fin.ext (by match a with | ⟨0, _⟩ => rfl | ⟨1, _⟩ => rfl))

/-- A maximum-reduce from -∞ over the first axis, read at column m: the maximum of that column's entries. -/
theorem reduceMax_col (y : FVec Ideal S8192x8192 .f32) (m : Fin 8192) :
    Host.reduce (FloatOps.maximumf (F := Ideal) (φ := .f32)) y (val_main_cst_2 (F := Ideal))
        Gen.reducesTo_S8192x8192_S8192_d0 Gen.h_S_ (ix1 m)
      = (Finset.univ : Finset (Fin 8192)).fold max ⊥ (fun n => y (ix2 n m)) := by
  rw [Host.reduce_eq_fold_single (FloatOps.maximumf (F := Ideal) (φ := .f32)) y _ Gen.reducesTo_S8192x8192_S8192_d0
      (by decide) Gen.h_S_ (ix1 m),
    val_main_cst_2_apply, Ideal.ofBits_def, negInf_eq_bot]
  refine Finset.fold_congr fun k _ => ?_
  exact congrArg y (funext fun a => Fin.ext (by match a with | ⟨0, _⟩ => rfl | ⟨1, _⟩ => rfl))

/-- The row maxima of the reference are the best matches of the rows. -/
theorem v9_apply (x0 x1 : FVec Ideal S8192x768 .f32) (n : Fin 8192) :
    val_main_v9 (F := Ideal) x0 x1 (ix1 n) = rowSup (rowsOf x0) (rowsOf x1) n := by
  unfold val_main_v9
  rw [reduceMax_row]
  unfold rowSup
  exact Finset.fold_congr fun m _ => v8_apply x0 x1 n m

/-- The column maxima of the reference are the best matches of the columns. -/
theorem v10_apply (x0 x1 : FVec Ideal S8192x768 .f32) (m : Fin 8192) :
    val_main_v10 (F := Ideal) x0 x1 (ix1 m) = colSup (rowsOf x0) (rowsOf x1) m := by
  unfold val_main_v10
  rw [reduceMax_col]
  unfold colSup
  exact Finset.fold_congr fun n _ => v8_apply x0 x1 n m

end Cert.RefSide

end
-- ==== Proof.KPieces.lean ====
import proofs.«153582_j18339510354596_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.ShloMosaic.Tactic Idealize.SL.Sem
open Idealize.ShloMosaic.Pipeline (Dat)

/-!
  What each control case of the body leaves behind, as values of the blocks it loaded. The body keeps a running
  row maximum in a scratch column: at the first column tile it resets the column to the bottom element, then at
  every tile it joins the column with the tile's row maxima (`k0_pay3`), stores the tile's column maxima
  (`k0_pay4`), and at the last column tile copies the column out. Each lemma reads the stores a case made back as
  the one value they hold.
-/

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- First column tile: the scratch column ends at the join of the bottom column with the tile's row maxima. -/
theorem scratch_A (c : Dev nD) (i : grid0.Coords) (arg2 : Memref sig .tc .vmem S2048x768 .f32) (harg2 : arg2.IsWhole) (arg3 : Memref sig .tc .vmem S512x768 .f32) (harg3 : arg3.IsWhole) (arg4 : Memref sig .tc .vmem S2048x1 .f32) (harg4 : arg4.IsWhole) (arg5 : Memref sig .tc .vmem S512x1 .f32) (harg5 : arg5.IsWhole) (arg6 : Memref sig .tc .vmem S2048x1 .f32) (harg6 : arg6.IsWhole) (arg7 : Memref sig .tc .vmem S1x1x512 .f32) (harg7 : arg7.IsWhole) (arg8 : Memref sig .tc .vmem S2048x1 .f32) (harg8 : arg8.IsWhole) (hc0 : cond0_0 i) (hc1 : ¬cond0_1 i) (x0 : Vec F S2048x768 .f32) (x1 : Vec F S512x768 .f32) (x2 : Vec F S2048x1 .f32) (x3 : Vec F S512x1 .f32) :
    sout0_A_0 c i arg2 harg2 arg3 harg3 arg4 harg4 arg5 harg5 arg6 harg6 arg7 harg7 arg8 harg8 hc0 hc1 x0 x1 x2 x3 = k0_pay3 x0 x2 x1 x3 (k0_pay1 (F := F)) := by
  unfold sout0_A_0
  rw [View.read_writes_eq_canon _ _ _ (scover0_A_0 c i arg2 harg2 arg3 harg3 arg4 harg4 arg5 harg5 arg6 harg6 arg7 harg7 arg8 harg8 hc0 hc1 x0 x1 x2 x3)]
  unfold kernelRun0_A
  dsimp only
  sl_unfold_words
  rw [View.canon_cons_unit_zero (S := S2048x1) hz2, View.readCov_unit_zero (S := S2048x1) _ hz2]
  simp only [View.readAt_eq_ld, harg2.read_unread, harg3.read_unread, harg4.read_unread, harg5.read_unread, harg8.read_unread,
    View.ld_unit_zero (S := S2048x768) hz2, View.ld_unit_zero (S := S512x768) hz2, View.ld_unit_zero (S := S2048x1) hz2,
    View.ld_unit_zero (S := S512x1) hz2]

/-- First column tile: the column-maximum block is the tile's column maxima. -/
theorem colmax_A (c : Dev nD) (i : grid0.Coords) (arg2 : Memref sig .tc .vmem S2048x768 .f32) (harg2 : arg2.IsWhole) (arg3 : Memref sig .tc .vmem S512x768 .f32) (harg3 : arg3.IsWhole) (arg4 : Memref sig .tc .vmem S2048x1 .f32) (harg4 : arg4.IsWhole) (arg5 : Memref sig .tc .vmem S512x1 .f32) (harg5 : arg5.IsWhole) (arg6 : Memref sig .tc .vmem S2048x1 .f32) (harg6 : arg6.IsWhole) (arg7 : Memref sig .tc .vmem S1x1x512 .f32) (harg7 : arg7.IsWhole) (arg8 : Memref sig .tc .vmem S2048x1 .f32) (harg8 : arg8.IsWhole) (hc0 : cond0_0 i) (hc1 : ¬cond0_1 i) (x0 : Vec F S2048x768 .f32) (x1 : Vec F S512x768 .f32) (x2 : Vec F S2048x1 .f32) (x3 : Vec F S512x1 .f32) :
    out0_A_5 c i arg2 harg2 arg3 harg3 arg4 harg4 arg5 harg5 arg6 harg6 arg7 harg7 arg8 harg8 hc0 hc1 x0 x1 x2 x3 = k0_pay4 x0 x2 x1 x3 := by
  unfold out0_A_5
  rw [View.read_writes_eq_canon _ _ _ (cover0_A_5 c i arg2 harg2 arg3 harg3 arg4 harg4 arg5 harg5 arg6 harg6 arg7 harg7 arg8 harg8 hc0 hc1 x0 x1 x2 x3)]
  unfold kernelRun0_A
  dsimp only
  sl_unfold_words
  rw [View.canon_unit_zero hz3]
  simp only [View.readAt_eq_ld, harg2.read_unread, harg3.read_unread, harg4.read_unread, harg5.read_unread, harg8.read_unread,
    View.ld_unit_zero (S := S2048x768) hz2, View.ld_unit_zero (S := S512x768) hz2, View.ld_unit_zero (S := S2048x1) hz2,
    View.ld_unit_zero (S := S512x1) hz2]

/-- A middle column tile: the scratch column, holding `xs0`, ends at its join with the tile's row maxima. -/
theorem scratch_B (c : Dev nD) (i : grid0.Coords) (arg2 : Memref sig .tc .vmem S2048x768 .f32) (harg2 : arg2.IsWhole) (arg3 : Memref sig .tc .vmem S512x768 .f32) (harg3 : arg3.IsWhole) (arg4 : Memref sig .tc .vmem S2048x1 .f32) (harg4 : arg4.IsWhole) (arg5 : Memref sig .tc .vmem S512x1 .f32) (harg5 : arg5.IsWhole) (arg6 : Memref sig .tc .vmem S2048x1 .f32) (harg6 : arg6.IsWhole) (arg7 : Memref sig .tc .vmem S1x1x512 .f32) (harg7 : arg7.IsWhole) (arg8 : Memref sig .tc .vmem S2048x1 .f32) (harg8 : arg8.IsWhole) (hc0 : ¬cond0_0 i) (hc1 : ¬cond0_1 i) (x0 : Vec F S2048x768 .f32) (x1 : Vec F S512x768 .f32) (x2 : Vec F S2048x1 .f32) (x3 : Vec F S512x1 .f32) (xs0 : Vec F S2048x1 .f32) :
    sout0_B_0 c i arg2 harg2 arg3 harg3 arg4 harg4 arg5 harg5 arg6 harg6 arg7 harg7 arg8 harg8 hc0 hc1 x0 x1 x2 x3 xs0 = k0_pay3 x0 x2 x1 x3 xs0 := by
  unfold sout0_B_0
  rw [View.read_writes_eq_canon _ _ _ (scover0_B_0 c i arg2 harg2 arg3 harg3 arg4 harg4 arg5 harg5 arg6 harg6 arg7 harg7 arg8 harg8 hc0 hc1 x0 x1 x2 x3 xs0)]
  unfold kernelRun0_B
  dsimp only
  sl_unfold_words
  rw [View.canon_unit_zero hz2]
  simp only [View.readAt_eq_ld, harg2.read_unread, harg3.read_unread, harg4.read_unread, harg5.read_unread, harg8.read_unread,
    View.ld_unit_zero (S := S2048x768) hz2, View.ld_unit_zero (S := S512x768) hz2, View.ld_unit_zero (S := S2048x1) hz2,
    View.ld_unit_zero (S := S512x1) hz2]

/-- A middle column tile: the column-maximum block is the tile's column maxima. -/
theorem colmax_B (c : Dev nD) (i : grid0.Coords) (arg2 : Memref sig .tc .vmem S2048x768 .f32) (harg2 : arg2.IsWhole) (arg3 : Memref sig .tc .vmem S512x768 .f32) (harg3 : arg3.IsWhole) (arg4 : Memref sig .tc .vmem S2048x1 .f32) (harg4 : arg4.IsWhole) (arg5 : Memref sig .tc .vmem S512x1 .f32) (harg5 : arg5.IsWhole) (arg6 : Memref sig .tc .vmem S2048x1 .f32) (harg6 : arg6.IsWhole) (arg7 : Memref sig .tc .vmem S1x1x512 .f32) (harg7 : arg7.IsWhole) (arg8 : Memref sig .tc .vmem S2048x1 .f32) (harg8 : arg8.IsWhole) (hc0 : ¬cond0_0 i) (hc1 : ¬cond0_1 i) (x0 : Vec F S2048x768 .f32) (x1 : Vec F S512x768 .f32) (x2 : Vec F S2048x1 .f32) (x3 : Vec F S512x1 .f32) (xs0 : Vec F S2048x1 .f32) :
    out0_B_5 c i arg2 harg2 arg3 harg3 arg4 harg4 arg5 harg5 arg6 harg6 arg7 harg7 arg8 harg8 hc0 hc1 x0 x1 x2 x3 xs0 = k0_pay4 x0 x2 x1 x3 := by
  unfold out0_B_5
  rw [View.read_writes_eq_canon _ _ _ (cover0_B_5 c i arg2 harg2 arg3 harg3 arg4 harg4 arg5 harg5 arg6 harg6 arg7 harg7 arg8 harg8 hc0 hc1 x0 x1 x2 x3 xs0)]
  unfold kernelRun0_B
  dsimp only
  sl_unfold_words
  rw [View.canon_unit_zero hz3]
  simp only [View.readAt_eq_ld, harg2.read_unread, harg3.read_unread, harg4.read_unread, harg5.read_unread, harg8.read_unread,
    View.ld_unit_zero (S := S2048x768) hz2, View.ld_unit_zero (S := S512x768) hz2, View.ld_unit_zero (S := S2048x1) hz2,
    View.ld_unit_zero (S := S512x1) hz2]

/-- The last column tile: the scratch column ends at its join with the tile's row maxima. -/
theorem scratch_C (c : Dev nD) (i : grid0.Coords) (arg2 : Memref sig .tc .vmem S2048x768 .f32) (harg2 : arg2.IsWhole) (arg3 : Memref sig .tc .vmem S512x768 .f32) (harg3 : arg3.IsWhole) (arg4 : Memref sig .tc .vmem S2048x1 .f32) (harg4 : arg4.IsWhole) (arg5 : Memref sig .tc .vmem S512x1 .f32) (harg5 : arg5.IsWhole) (arg6 : Memref sig .tc .vmem S2048x1 .f32) (harg6 : arg6.IsWhole) (arg7 : Memref sig .tc .vmem S1x1x512 .f32) (harg7 : arg7.IsWhole) (arg8 : Memref sig .tc .vmem S2048x1 .f32) (harg8 : arg8.IsWhole) (hc0 : ¬cond0_0 i) (hc1 : cond0_1 i) (x0 : Vec F S2048x768 .f32) (x1 : Vec F S512x768 .f32) (x2 : Vec F S2048x1 .f32) (x3 : Vec F S512x1 .f32) (xs0 : Vec F S2048x1 .f32) :
    sout0_C_0 c i arg2 harg2 arg3 harg3 arg4 harg4 arg5 harg5 arg6 harg6 arg7 harg7 arg8 harg8 hc0 hc1 x0 x1 x2 x3 xs0 = k0_pay3 x0 x2 x1 x3 xs0 := by
  unfold sout0_C_0
  rw [View.read_writes_eq_canon _ _ _ (scover0_C_0 c i arg2 harg2 arg3 harg3 arg4 harg4 arg5 harg5 arg6 harg6 arg7 harg7 arg8 harg8 hc0 hc1 x0 x1 x2 x3 xs0)]
  unfold kernelRun0_C
  dsimp only
  sl_unfold_words
  rw [View.canon_unit_zero hz2]
  simp only [View.readAt_eq_ld, harg2.read_unread, harg3.read_unread, harg4.read_unread, harg5.read_unread, harg8.read_unread,
    View.ld_unit_zero (S := S2048x768) hz2, View.ld_unit_zero (S := S512x768) hz2, View.ld_unit_zero (S := S2048x1) hz2,
    View.ld_unit_zero (S := S512x1) hz2]

/-- The last column tile: the column-maximum block is the tile's column maxima. -/
theorem colmax_C (c : Dev nD) (i : grid0.Coords) (arg2 : Memref sig .tc .vmem S2048x768 .f32) (harg2 : arg2.IsWhole) (arg3 : Memref sig .tc .vmem S512x768 .f32) (harg3 : arg3.IsWhole) (arg4 : Memref sig .tc .vmem S2048x1 .f32) (harg4 : arg4.IsWhole) (arg5 : Memref sig .tc .vmem S512x1 .f32) (harg5 : arg5.IsWhole) (arg6 : Memref sig .tc .vmem S2048x1 .f32) (harg6 : arg6.IsWhole) (arg7 : Memref sig .tc .vmem S1x1x512 .f32) (harg7 : arg7.IsWhole) (arg8 : Memref sig .tc .vmem S2048x1 .f32) (harg8 : arg8.IsWhole) (hc0 : ¬cond0_0 i) (hc1 : cond0_1 i) (x0 : Vec F S2048x768 .f32) (x1 : Vec F S512x768 .f32) (x2 : Vec F S2048x1 .f32) (x3 : Vec F S512x1 .f32) (xs0 : Vec F S2048x1 .f32) :
    out0_C_5 c i arg2 harg2 arg3 harg3 arg4 harg4 arg5 harg5 arg6 harg6 arg7 harg7 arg8 harg8 hc0 hc1 x0 x1 x2 x3 xs0 = k0_pay4 x0 x2 x1 x3 := by
  unfold out0_C_5
  rw [View.read_writes_eq_canon _ _ _ (cover0_C_5 c i arg2 harg2 arg3 harg3 arg4 harg4 arg5 harg5 arg6 harg6 arg7 harg7 arg8 harg8 hc0 hc1 x0 x1 x2 x3 xs0)]
  unfold kernelRun0_C
  dsimp only
  sl_unfold_words
  rw [View.canon_unit_zero hz3]
  simp only [View.readAt_eq_ld, harg2.read_unread, harg3.read_unread, harg4.read_unread, harg5.read_unread, harg8.read_unread,
    View.ld_unit_zero (S := S2048x768) hz2, View.ld_unit_zero (S := S512x768) hz2, View.ld_unit_zero (S := S2048x1) hz2,
    View.ld_unit_zero (S := S512x1) hz2]

/-- The last column tile: the row-maximum block is the scratch column as that tile left it. -/
theorem rowmax_C (c : Dev nD) (i : grid0.Coords) (arg2 : Memref sig .tc .vmem S2048x768 .f32) (harg2 : arg2.IsWhole) (arg3 : Memref sig .tc .vmem S512x768 .f32) (harg3 : arg3.IsWhole) (arg4 : Memref sig .tc .vmem S2048x1 .f32) (harg4 : arg4.IsWhole) (arg5 : Memref sig .tc .vmem S512x1 .f32) (harg5 : arg5.IsWhole) (arg6 : Memref sig .tc .vmem S2048x1 .f32) (harg6 : arg6.IsWhole) (arg7 : Memref sig .tc .vmem S1x1x512 .f32) (harg7 : arg7.IsWhole) (arg8 : Memref sig .tc .vmem S2048x1 .f32) (harg8 : arg8.IsWhole) (hc0 : ¬cond0_0 i) (hc1 : cond0_1 i) (x0 : Vec F S2048x768 .f32) (x1 : Vec F S512x768 .f32) (x2 : Vec F S2048x1 .f32) (x3 : Vec F S512x1 .f32) (xs0 : Vec F S2048x1 .f32) :
    out0_C_4 c i arg2 harg2 arg3 harg3 arg4 harg4 arg5 harg5 arg6 harg6 arg7 harg7 arg8 harg8 hc0 hc1 x0 x1 x2 x3 xs0 = k0_pay3 x0 x2 x1 x3 xs0 := by
  unfold out0_C_4
  rw [View.read_writes_eq_canon _ _ _ (cover0_C_4 c i arg2 harg2 arg3 harg3 arg4 harg4 arg5 harg5 arg6 harg6 arg7 harg7 arg8 harg8 hc0 hc1 x0 x1 x2 x3 xs0)]
  unfold kernelRun0_C
  dsimp only
  sl_unfold_words
  rw [View.canon_unit_zero hz2, View.readCov_unit_zero (S := S2048x1) _ hz2]
  simp only [View.readAt_eq_ld, harg2.read_unread, harg3.read_unread, harg4.read_unread, harg5.read_unread, harg8.read_unread,
    View.ld_unit_zero (S := S2048x768) hz2, View.ld_unit_zero (S := S512x768) hz2, View.ld_unit_zero (S := S2048x1) hz2,
    View.ld_unit_zero (S := S512x1) hz2]

end Cert.KernelIdeal.Pieces

end
-- ==== Proof.KPoints.lean ====
/-
  What the outputs' buffers and the carried scratch column hold after each grid point, by the point's control case, as
  the body's arithmetic of the point's blocks: at the first column tile of a row tile the column restarts from the
  bottom column; at every other point it continues from what the point before left; at the last column tile the
  row-maximum block is that same column. The column-maximum block is the tile's column maxima at every point.
-/
import proofs.«153582_j18339510354596_2_alg».proof.Proof.KPieces

set_option maxRecDepth 16384

noncomputable section

namespace Cert.KernelIdeal.Points

open Cert.KernelIdeal Cert.KernelIdeal.Gen Cert.KernelIdeal.Pieces
open Idealize.ShloMosaic Idealize.ShloMosaic.TcCoe Idealize.SL.Sem

variable {F : FTy → Type} [FloatOps F]
variable (m : (ℓ : Loc nD τ sig) → Buf (Elt F) ℓ)

/-- First column tile of a row tile. -/
theorem at_first (c : Dev nD) (t : Fin cfg0.N) (h0 : t.val % 16 = 0) (h1 : ¬t.val % 16 = 15) :
    (outsAt0 m c t.val t.isLt).2.2 = k0_pay3 (iblk m c 0 t) (iblk m c 2 t) (iblk m c 1 t) (iblk m c 3 t) (k0_pay1 (F := F))
    ∧ (outsAt0 m c t.val t.isLt).2.1 = k0_pay4 (iblk m c 0 t) (iblk m c 2 t) (iblk m c 1 t) (iblk m c 3 t) := by
  rw [outsAt0_A m c t h0 h1]
  dsimp only
  exact ⟨scratch_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk m c 0 t) (iblk m c 1 t) (iblk m c 2 t) (iblk m c 3 t),
    colmax_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk m c 0 t) (iblk m c 1 t) (iblk m c 2 t) (iblk m c 3 t)⟩

/-- A middle column tile. -/
theorem at_middle (c : Dev nD) (t : Fin cfg0.N) (h0 : ¬t.val % 16 = 0) (h1 : ¬t.val % 16 = 15) :
    (outsAt0 m c t.val t.isLt).2.2 = k0_pay3 (iblk m c 0 t) (iblk m c 2 t) (iblk m c 1 t) (iblk m c 3 t) (outsAt0 m c (t.val - 1) (Nat.lt_of_le_of_lt (Nat.sub_le _ _) t.isLt)).2.2
    ∧ (outsAt0 m c t.val t.isLt).2.1 = k0_pay4 (iblk m c 0 t) (iblk m c 2 t) (iblk m c 1 t) (iblk m c 3 t) := by
  rw [outsAt0_B m c t h0 h1]
  dsimp only
  exact ⟨scratch_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.2,
    colmax_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.2⟩

/-- The last column tile: the row-maximum block is the column as this point leaves it. -/
theorem at_last (c : Dev nD) (t : Fin cfg0.N) (h0 : ¬t.val % 16 = 0) (h1 : t.val % 16 = 15) :
    (outsAt0 m c t.val t.isLt).2.2 = k0_pay3 (iblk m c 0 t) (iblk m c 2 t) (iblk m c 1 t) (iblk m c 3 t) (outsAt0 m c (t.val - 1) (Nat.lt_of_le_of_lt (Nat.sub_le _ _) t.isLt)).2.2
    ∧ (outsAt0 m c t.val t.isLt).2.1 = k0_pay4 (iblk m c 0 t) (iblk m c 2 t) (iblk m c 1 t) (iblk m c 3 t)
    ∧ (outsAt0 m c t.val t.isLt).1 = (outsAt0 m c t.val t.isLt).2.2 := by
  rw [outsAt0_C m c t h0 h1]
  dsimp only
  refine ⟨scratch_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.2,
    colmax_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.2, ?_⟩
  exact (rowmax_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.2).trans
    (scratch_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.2).symm

end Cert.KernelIdeal.Points

end
-- ==== Proof.KHost.lean ====
/-
  The host lines before the region, read as values: the two columns of row scales the region is launched with.

  For each argument array the program sums the squares of every row from the zero literal, takes the square root,
  clips it from below at the literal `ε`, and divides the literal `1` by the result. So entry `n` of a scale
  column is `1 / max ε ‖row n‖`, the reciprocal of the row's clipped length.
-/
import proofs.«153582_j18339510354596_2_alg».proof.Proof.Gen.KernelIdeal.Frame
import proofs.«153582_j18339510354596_2_alg».proof.Proof.Gen.ReferenceIdeal.Read
import proofs.«153582_j18339510354596_2_alg».proof.Proof.CosineSpec
import proofs.«153582_j18339510354596_2_alg».proof.Proof.RefSide
import Idealize.ShloMosaic.Lib.StableHlo.Run
import Idealize.ShloMosaic.Lib.Pipeline.Value
import Idealize.ShloMosaic.Lib.ValueIdx

set_option maxRecDepth 16384

noncomputable section

namespace Cert.KernelIdeal.HostSide

open Cert.KernelIdeal Cert.KernelIdeal.Gen Cert.CosineSpec
open Idealize.ShloMosaic Idealize.ShloMosaic.TcCoe Idealize.ShloMosaic.ValueIdx Idealize.SL.Sem
open Idealize.ShloMosaic.StableHlo

variable (m : (ℓ : Loc nD τ sig) → Buf (Elt Ideal) ℓ)

/-- The clipped lengths of an array's rows, as a column: sum of squares from zero, square root, clipped at `ε`. -/
abbrev clipCol (a : FVec Ideal S8192x768 .f32) : FVec Ideal S8192x1 .f32 :=
  Cert.ReferenceIdeal.Read.val_main_v1 (F := Ideal) a

/-- The reciprocals of the clipped lengths, as a column: the literal one divided by each. -/
abbrev recipCol (a : FVec Ideal S8192x768 .f32) : FVec Ideal S8192x1 .f32 :=
  Host.divf (broadcastInDim S8192x1 ![] bcast_S_S8192x1 (constant (F := Ideal) S_ .f32 0x3F800000#32)) (clipCol a)

/-- Entry `n` of the column of clipped lengths is the clipped length of row `n`. -/
theorem clipCol_apply (a : FVec Ideal S8192x768 .f32) (n : Fin 8192) (u : Fin 1) :
    clipCol a (ix2 n u) = clipNorm (rowsOf a) n :=
  Cert.RefSide.v1_apply a n u

theorem one_eq : Ideal.ofBits .f32 0x3F800000#32 = (1 : EReal) := by
  simp [Ideal.ofBits, Ideal.ieee]
  rw [← EReal.coe_mul, ← EReal.coe_one]
  congr 1
  norm_num

/-- Entry `n` of the column of reciprocals is one over the clipped length of row `n`. -/
theorem recipCol_apply (a : FVec Ideal S8192x768 .f32) (n : Fin 8192) (u : Fin 1) :
    recipCol a (ix2 n u) = Ideal.div 1 (clipNorm (rowsOf a) n) := by
  show Ideal.div (broadcastInDim S8192x1 ![] bcast_S_S8192x1 (constant (F := Ideal) S_ .f32 0x3F800000#32) (ix2 n u)) (clipCol a (ix2 n u)) = _
  rw [clipCol_apply, broadcastInDim_apply _ bcast_S_S8192x1 _ (ix2 n u) ix0 (fun a => a.elim0)]
  show Ideal.div (Ideal.ofBits .f32 0x3F800000#32) _ = _
  rw [one_eq]

/-- The region finds, as the scale column of the first argument, the reciprocals of its rows' clipped lengths. -/
theorem V_main_v3 (c : Dev nD) :
    (V m c main_v3 : S8192x1.Idx → EReal) = recipCol (m ((c : Thread nD τ).loc main_arg0)) := by
  dsimp only [V, V0]
  simp only [hostOps0, hostOps0_1, hostOps0_2, hostOps0_3, hostOps0_4, hostOps0_5, hostOps0_6, hostOps0_7,
    List.flatten_cons, List.flatten_nil, List.append_nil, List.cons_append, List.nil_append]
  after_results
  rfl

/-- And as the scale column of the second argument, the reciprocals of its rows' clipped lengths. -/
theorem V_main_v7 (c : Dev nD) :
    (V m c main_v7 : S8192x1.Idx → EReal) = recipCol (m ((c : Thread nD τ).loc main_arg1)) := by
  dsimp only [V, V0]
  simp only [hostOps0, hostOps0_1, hostOps0_2, hostOps0_3, hostOps0_4, hostOps0_5, hostOps0_6, hostOps0_7,
    List.flatten_cons, List.flatten_nil, List.append_nil, List.cons_append, List.nil_append]
  after_results
  rfl

end Cert.KernelIdeal.HostSide

end
-- ==== Proof.LibColumnLayout.lean ====
/-
  Column layouts and row reductions read at an index.

  A reduction along the last axis with `keepdims` leaves a column: the reduced vector `[a]` is cast to `[a, 1]` and
  broadcast back to `[a, b]`, so entry `(p, c)` of the broadcast is entry `p` of the reduced vector. The reductions
  themselves, over the last axis of a rank-2 array and read at row `p`, are the sum (resp. the fold of `max`) over that
  row's entries. Stated over literal-size constructors (`ix1`, `ix2`) so that they fire on indices built by coordinates.
-/
import Idealize.ShloMosaic.Lib.ValueIdx
import Idealize.ShloMosaic.Lib.ValueLayout
import Idealize.ShloMosaic.Lib.Pipeline.Value
import Idealize.ShloMosaic.PureOps.Ideal.Laws

noncomputable section

namespace Idealize.ShloMosaic.ColumnLayout

open Idealize.ShloMosaic Idealize.ShloMosaic.ValueIdx

variable {α : Type}

/-- An `[a]` array cast to the column `[a, 1]` reads, at `(p, u)`, the operand at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a, b]` array cast to `[1, 1, a, b]` reads, at `(u, v, i, j)`, the operand at `(i, j)`, whatever the unit coordinates. -/
theorem shapeCast_ab_11ab_apply {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_two, Shape.rowMajor_val_four]
    show i.val * b + j.val = ((u.val * 1 + v.val) * a + i.val) * b + j.val
    simp only [hu, hv, Nat.zero_mul, Nat.zero_add])

/-- The two together: a reduced vector kept as a column and broadcast back along the rows. -/
theorem keepdims_apply {a b : ℕ} (x : (⟨1, ![a]⟩ : Shape).Idx → α) (h : (⟨1, ![a]⟩ : Shape).ShapeCasts ⟨2, ![a, 1]⟩)
    (h' : (⟨2, ![a, 1]⟩ : Shape).Broadcasts ⟨2, ![a, b]⟩) (p : Fin a) (c : Fin b) :
    broadcastTo ⟨2, ![a, b]⟩ (shapeCast ⟨2, ![a, 1]⟩ x h) h' (ix2 p c) = x (ix1 p) :=
  (broadcastTo_a1_ab_apply _ h' p c).trans (shapeCast_a_a1_apply x h p 0)

/-- A float sum over the last axis of an `[a, b]` array from the zero word, read at row `p` at the extended reals: the sum
    of the row's entries. -/
theorem rowSum_apply {a b : ℕ} (src : FVec Ideal ⟨2, ![a, b]⟩ .f32) (h : (⟨2, ![a, b]⟩ : Shape).Reduces [1] ⟨1, ![a]⟩)
    (hφ : FKind.Formats FTy.f32) (hacc : (0x00000000#32 : BitVec FTy.f32.bits) = FKind.add.neutral .f32 hφ) (p : Fin a) :
    multiReduction .add [1] ⟨1, ![a]⟩ src 0x00000000#32 h hφ hacc (ix1 p) = ∑ k : Fin b, src (ix2 p k) := by
  refine (Ideal.multiReduction_add_single src 0x00000000#32 h hφ hacc (ix1 p)).trans ?_
  refine Finset.sum_congr rfl fun k _ => congrArg src (funext fun ax => Fin.ext ?_)
  match ax with
  | ⟨0, _⟩ => rfl
  | ⟨1, _⟩ => rfl

/-- The binary32 word of `−∞` is the least extended real. -/
theorem ofBits_neg_inf_f32 : Ideal.ofBits .f32 0xFF800000#32 = ⊥ := by simp [Ideal.ofBits, Ideal.ieee]

/-- A float maximum over the last axis of an `[a, b]` array from the `−∞` word, read at row `p` at the extended reals: the
    fold of `max` over the row's entries from `⊥`. -/
theorem rowMax_apply {a b : ℕ} (src : FVec Ideal ⟨2, ![a, b]⟩ .f32) (h : (⟨2, ![a, b]⟩ : Shape).Reduces [1] ⟨1, ![a]⟩)
    (hφ : FKind.Formats FTy.f32) (hacc : (0xFF800000#32 : BitVec FTy.f32.bits) = FKind.maximumf.neutral .f32 hφ) (p : Fin a) :
    multiReduction .maximumf [1] ⟨1, ![a]⟩ src 0xFF800000#32 h hφ hacc (ix1 p)
      = (Finset.univ : Finset (Fin b)).fold max ⊥ (fun k => src (ix2 p k)) := by
  refine (Ideal.multiReduction_maximumf_single src 0xFF800000#32 h hφ hacc (ix1 p)).trans ?_
  show (Finset.univ : Finset (Fin b)).fold max (Ideal.ofBits .f32 0xFF800000#32) (src ∘ h.lift (ix1 p)) = _
  rw [ofBits_neg_inf_f32]
  refine congrArg (Finset.fold max ⊥ · Finset.univ) (funext fun k => congrArg src (funext fun ax => Fin.ext ?_))
  match ax with
  | ⟨0, _⟩ => rfl
  | ⟨1, _⟩ => rfl

/-- A row softmax read at an entry. The printed form: the row maximum (a float `max` reduction from `−∞`) kept as a
    column, subtracted, exponentiated; the row sum of the exponentials (a float `add` reduction from zero) kept as a column;
    the quotient. At `(m, n)`, over the extended reals, it is `exp (s[m, n] − max_n' s[m, n'])` over the sum of the same
    expression along row `m`. -/
theorem rowSoftmax_apply {a b : ℕ} (s : FVec Ideal ⟨2, ![a, b]⟩ .f32)
    (h : (⟨2, ![a, b]⟩ : Shape).Reduces [1] ⟨1, ![a]⟩) (hφ hφ' : FKind.Formats FTy.f32)
    (hmax : (0xFF800000#32 : BitVec FTy.f32.bits) = FKind.maximumf.neutral .f32 hφ)
    (hadd : (0x00000000#32 : BitVec FTy.f32.bits) = FKind.add.neutral .f32 hφ')
    (hc : (⟨1, ![a]⟩ : Shape).ShapeCasts ⟨2, ![a, 1]⟩) (hb : (⟨2, ![a, 1]⟩ : Shape).Broadcasts ⟨2, ![a, b]⟩)
    (m : Fin a) (n : Fin b) :
    divf
        (exp (subf s (broadcastTo ⟨2, ![a, b]⟩
          (shapeCast ⟨2, ![a, 1]⟩ (multiReduction .maximumf [1] ⟨1, ![a]⟩ s 0xFF800000#32 h hφ hmax) hc) hb)))
        (broadcastTo ⟨2, ![a, b]⟩
          (shapeCast ⟨2, ![a, 1]⟩
            (multiReduction .add [1] ⟨1, ![a]⟩
              (exp (subf s (broadcastTo ⟨2, ![a, b]⟩
                (shapeCast ⟨2, ![a, 1]⟩ (multiReduction .maximumf [1] ⟨1, ![a]⟩ s 0xFF800000#32 h hφ hmax) hc) hb)))
              0x00000000#32 h hφ' hadd) hc) hb)
        (ix2 m n)
      = Ideal.div (Ideal.exp (s (ix2 m n) - (Finset.univ : Finset (Fin b)).fold max ⊥ (fun n' => s (ix2 m n'))))
          (∑ n' : Fin b, Ideal.exp (s (ix2 m n') - (Finset.univ : Finset (Fin b)).fold max ⊥ (fun n'' => s (ix2 m n'')))) := by
  have hnum : ∀ n' : Fin b,
      exp (subf s (broadcastTo ⟨2, ![a, b]⟩
          (shapeCast ⟨2, ![a, 1]⟩ (multiReduction .maximumf [1] ⟨1, ![a]⟩ s 0xFF800000#32 h hφ hmax) hc) hb)) (ix2 m n')
        = Ideal.exp (s (ix2 m n') - (Finset.univ : Finset (Fin b)).fold max ⊥ (fun n'' => s (ix2 m n''))) := by
    intro n'
    show Ideal.exp (s (ix2 m n') - broadcastTo ⟨2, ![a, b]⟩
          (shapeCast ⟨2, ![a, 1]⟩ (multiReduction .maximumf [1] ⟨1, ![a]⟩ s 0xFF800000#32 h hφ hmax) hc) hb (ix2 m n')) = _
    rw [keepdims_apply, rowMax_apply]
  rw [divf_apply, hnum n, keepdims_apply, rowSum_apply]
  exact congrArg (Ideal.div _) (Finset.sum_congr rfl fun n' _ => hnum n')

end Idealize.ShloMosaic.ColumnLayout

end
-- ==== Proof.LibColumnMax.lean ====
/-
  A column maximum read at an index.

  A float `max` reduction over the FIRST axis of an `[a, b]` array from the `−∞` word, read at column `q` over the
  extended reals, is the fold of `max` over that column's entries from the bottom element. Stated over the literal-size
  constructors `ix1`, `ix2` so that it fires on indices built by coordinates.
-/
import Idealize.ShloMosaic.Lib.ValueIdx
import Idealize.ShloMosaic.PureOps.Ideal.Laws

noncomputable section

namespace Idealize.ShloMosaic.ColumnMax

open Idealize.ShloMosaic Idealize.ShloMosaic.ValueIdx

/-- The binary32 word of `−∞` is the least extended real. -/
theorem neg_inf_word_eq_bot : Ideal.ofBits .f32 0xFF800000#32 = ⊥ := by simp [Ideal.ofBits, Ideal.ieee]

/-- A float maximum over the first axis of an `[a, b]` array from the `−∞` word, read at column `q` at the extended
    reals: the fold of `max` over the column's entries from `⊥`. -/
theorem colMax_apply {a b : ℕ} (src : FVec Ideal ⟨2, ![a, b]⟩ .f32) (h : (⟨2, ![a, b]⟩ : Shape).Reduces [0] ⟨1, ![b]⟩)
    (hφ : FKind.Formats FTy.f32) (hacc : (0xFF800000#32 : BitVec FTy.f32.bits) = FKind.maximumf.neutral .f32 hφ) (q : Fin b) :
    multiReduction .maximumf [0] ⟨1, ![b]⟩ src 0xFF800000#32 h hφ hacc (ix1 q)
      = (Finset.univ : Finset (Fin a)).fold max ⊥ (fun k => src (ix2 k q)) := by
  refine (Ideal.multiReduction_maximumf_single src 0xFF800000#32 h hφ hacc (ix1 q)).trans ?_
  show (Finset.univ : Finset (Fin a)).fold max (Ideal.ofBits .f32 0xFF800000#32) (src ∘ h.lift (ix1 q)) = _
  rw [neg_inf_word_eq_bot]
  refine congrArg (Finset.fold max ⊥ · Finset.univ) (funext fun k => congrArg src (funext fun ax => Fin.ext ?_))
  match ax with
  | ⟨0, _⟩ => rfl
  | ⟨1, _⟩ => rfl

end Idealize.ShloMosaic.ColumnMax

end
-- ==== Proof.KPayload.lean ====
/-
  The body's arithmetic read at an index, over the extended reals.

  With `X` the loaded block of 2048 rows, `Y` the loaded block of 512 rows, and `a`, `b` their columns of row
  scales, the tile is `T[r, k] = ∑ d, (X[r, d] · a[r]) · (Y[k, d] · b[k])`: a product of the two scaled blocks
  contracted over the 768 entries of a row, into a zero accumulator (the change of float format on the way in is the
  identity on extended reals). The stored values are the bottom column, the join `max (A[r]) (max_k T[r, k])` of a
  column `A` with the tile's row maxima, and the tile's column maxima `max_r T[r, k]`.
-/
import proofs.«153582_j18339510354596_2_alg».proof.Proof.Gen.KernelIdeal.Skeleton
import proofs.«153582_j18339510354596_2_alg».proof.Proof.LibColumnLayout
import proofs.«153582_j18339510354596_2_alg».proof.Proof.LibColumnMax
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload

open Cert.KernelIdeal Cert.KernelIdeal.Gen
open Idealize.ShloMosaic Idealize.ShloMosaic.ValueIdx Idealize.ShloMosaic.ColumnLayout Idealize.ShloMosaic.ColumnMax

/-- The contraction's dimension record: rows of the left block against rows of the right block. -/
abbrev DD : DotDims S2048x768 S512x768 S2048x512 := dot_S2048x768_S512x768_S2048x512_1_1_0_0_n_n

theorem lhs0 (i : S2048x512.Idx) (q : DD.contr.Idx) : (DD.lhsIdx i q 0).val = (i 0).val := by
  unfold DotDims.lhsIdx
  rw [dif_neg (show ¬(0 : Fin S2048x768.rank) ∈ DD.lhsBatch by decide),
    dif_pos (show (0 : Fin S2048x768.rank) ∈ DD.lhsNonContracting by decide)]
  rfl

theorem lhs1 (i : S2048x512.Idx) (q : DD.contr.Idx) : (DD.lhsIdx i q 1).val = (q ⟨0, by decide⟩).val :=
  DD.lhsIdx_val_of_single rfl i q

theorem rhs0 (i : S2048x512.Idx) (q : DD.contr.Idx) : (DD.rhsIdx i q 0).val = (i 1).val := by
  unfold DotDims.rhsIdx
  rw [dif_neg (show ¬(0 : Fin S512x768.rank) ∈ DD.rhsBatch by decide),
    dif_pos (show (0 : Fin S512x768.rank) ∈ DD.rhsNonContracting by decide)]
  rfl

theorem rhs1 (i : S2048x512.Idx) (q : DD.contr.Idx) : (DD.rhsIdx i q 1).val = (q ⟨0, by decide⟩).val :=
  DD.rhsIdx_val_of_single rfl i q

/-- One entry of the tile: the inner product of scaled row `r` of the left block with scaled row `k` of the right. -/
theorem tile_apply (X0 : Vec Ideal S2048x768 .f32) (X2 : Vec Ideal S2048x1 .f32) (X1 : Vec Ideal S512x768 .f32)
    (X3 : Vec Ideal S512x1 .f32) (r : Fin 2048) (k : Fin 512) :
    k0_pay2 (F := Ideal) X0 X2 X1 X3 (ix2 r k)
      = ∑ d : Fin 768, (X0 (ix2 r d) * X2 (ix2 r (0 : Fin 1))) * (X1 (ix2 k d) * X3 (ix2 k (0 : Fin 1))) := by
  unfold k0_pay2
  refine (Ideal.matmul_constant_zero_apply DD none _ _ (ix2 r k)).trans ?_
  rw [← Equiv.sum_comp (contrEquiv1 DD 768 rfl rfl).symm]
  refine Finset.sum_congr rfl fun d _ => ?_
  have hk := contrEquiv1_symm_val DD 768 rfl rfl d
  have el : DD.lhsIdx (ix2 r k) ((contrEquiv1 DD 768 rfl rfl).symm d) = ix2 r d := funext fun a => Fin.ext (by
    match a with
    | ⟨0, _⟩ => exact lhs0 _ _
    | ⟨1, _⟩ => exact (lhs1 _ _).trans hk)
  have er : DD.rhsIdx (ix2 r k) ((contrEquiv1 DD 768 rfl rfl).symm d) = ix2 k d := funext fun a => Fin.ext (by
    match a with
    | ⟨0, _⟩ => exact rhs0 _ _
    | ⟨1, _⟩ => exact (rhs1 _ _).trans hk)
  rw [el, er]
  show (X0 (ix2 r d) * broadcastTo S2048x768 (shapeCast S2048x1 X2 shapeCasts_S2048x1_S2048x1) broadcasts_S2048x1_S2048x768 (ix2 r d))
      * (X1 (ix2 k d) * broadcastTo S512x768 (shapeCast S512x1 X3 shapeCasts_S512x1_S512x1) broadcasts_S512x1_S512x768 (ix2 k d)) = _
  rw [broadcastTo_a1_ab_apply, broadcastTo_a1_ab_apply, shapeCast_self, shapeCast_self]

/-- The column the reset stores is the bottom element everywhere. -/
theorem bottom_apply (i : S2048x1.Idx) : k0_pay1 (F := Ideal) i = ⊥ := by
  unfold k0_pay1
  rw [shapeCast_self]
  exact ofBits_neg_inf_f32

/-- The join: entry `r` of the stored column is the larger of the old column's entry and the tile's row maximum. -/
theorem rowJoin_apply (X0 : Vec Ideal S2048x768 .f32) (X2 : Vec Ideal S2048x1 .f32) (X1 : Vec Ideal S512x768 .f32)
    (X3 : Vec Ideal S512x1 .f32) (A : Vec Ideal S2048x1 .f32) (r : Fin 2048) (u : Fin 1) :
    k0_pay3 (F := Ideal) X0 X2 X1 X3 A (ix2 r u)
      = max (A (ix2 r u)) ((Finset.univ : Finset (Fin 512)).fold max ⊥ fun k => k0_pay2 (F := Ideal) X0 X2 X1 X3 (ix2 r k)) := by
  unfold k0_pay3
  rw [shapeCast_self]
  refine congrArg (max (A (ix2 r u))) ?_
  rw [shapeCast_a_a1_apply]
  exact rowMax_apply (k0_pay2 (F := Ideal) X0 X2 X1 X3) reduces_S2048x512_S2048 _ _ r

/-- The tile's column maxima, kept as a `[1, 1, 512]` block. -/
theorem colMaxBlock_apply (X0 : Vec Ideal S2048x768 .f32) (X2 : Vec Ideal S2048x1 .f32) (X1 : Vec Ideal S512x768 .f32)
    (X3 : Vec Ideal S512x1 .f32) (u v : Fin 1) (k : Fin 512) :
    k0_pay4 (F := Ideal) X0 X2 X1 X3 (ix3 u v k)
      = (Finset.univ : Finset (Fin 2048)).fold max ⊥ fun r => k0_pay2 (F := Ideal) X0 X2 X1 X3 (ix2 r k) := by
  unfold k0_pay4
  rw [shapeCast_ab_1ab_apply, shapeCast_a_1a_apply]
  exact colMax_apply (k0_pay2 (F := Ideal) X0 X2 X1 X3) reduces_S2048x512_S512 _ _ k

end Cert.KernelIdeal.Payload

end
-- ==== Proof.KTile.lean ====
/-
  One tile of the similarity matrix.

  When the four loaded blocks are rows `2048·i …` of the first array with their reciprocal clipped lengths, and rows
  `512·j …` of the second with theirs, the tile the body computes is the block `(i, j)` of the similarity matrix —
  each entry multiplied by the reciprocal where the specification divides, which agree because a clipped length is never
  zero. Hence the body's stored values: the running row maximum joined with this tile's, and this tile's column maxima.
-/
import proofs.«153582_j18339510354596_2_alg».proof.Proof.KPayload
import proofs.«153582_j18339510354596_2_alg».proof.Proof.CosineSpec

noncomputable section

namespace Cert.KernelIdeal.Tile

open Cert.KernelIdeal Cert.KernelIdeal.Gen Cert.KernelIdeal.Payload Cert.CosineSpec
open Idealize.ShloMosaic Idealize.ShloMosaic.ValueIdx

/-- What the four loaded blocks hold at row tile `i` and column tile `j` of the arrays `x`, `y`. -/
structure Loaded (x y : Rows) (i : Fin 4) (j : Fin 16) (X0 : Vec Ideal S2048x768 .f32) (X2 : Vec Ideal S2048x1 .f32)
    (X1 : Vec Ideal S512x768 .f32) (X3 : Vec Ideal S512x1 .f32) : Prop where
  left : ∀ (r : Fin 2048) (d : Fin 768), X0 (ix2 r d) = x (rowAt i r) d
  leftScale : ∀ r : Fin 2048, X2 (ix2 r (0 : Fin 1)) = Ideal.div 1 (clipNorm x (rowAt i r))
  right : ∀ (k : Fin 512) (d : Fin 768), X1 (ix2 k d) = y (colAt j k) d
  rightScale : ∀ k : Fin 512, X3 (ix2 k (0 : Fin 1)) = Ideal.div 1 (clipNorm y (colAt j k))

variable {x y : Rows} {i : Fin 4} {j : Fin 16} {X0 : Vec Ideal S2048x768 .f32} {X2 : Vec Ideal S2048x1 .f32}
  {X1 : Vec Ideal S512x768 .f32} {X3 : Vec Ideal S512x1 .f32}

/-- The tile is block `(i, j)` of the similarity matrix. -/
theorem tile_eq_sim (h : Loaded x y i j X0 X2 X1 X3) (r : Fin 2048) (k : Fin 512) :
    k0_pay2 (F := Ideal) X0 X2 X1 X3 (ix2 r k) = sim x y (rowAt i r) (colAt j k) := by
  rw [tile_apply, ← simRecip_eq_sim]
  unfold simRecip
  refine Finset.sum_congr rfl fun d _ => ?_
  rw [h.left, h.leftScale, h.right, h.rightScale]

/-- The stored column: the old column joined with the row maxima over column tile `j`. -/
theorem rowJoin_eq (h : Loaded x y i j X0 X2 X1 X3) (A : Vec Ideal S2048x1 .f32) (r : Fin 2048) (u : Fin 1) :
    k0_pay3 (F := Ideal) X0 X2 X1 X3 A (ix2 r u) = max (A (ix2 r u)) (rowTileSup x y (rowAt i r) j) := by
  rw [rowJoin_apply]
  unfold rowTileSup
  exact congrArg (max (A (ix2 r u))) (congrArg (Finset.fold max ⊥ · Finset.univ) (funext fun k => tile_eq_sim h r k))

/-- The stored block of column maxima: the maxima over row tile `i` of the columns of column tile `j`. -/
theorem colMaxBlock_eq (h : Loaded x y i j X0 X2 X1 X3) (u v : Fin 1) (k : Fin 512) :
    k0_pay4 (F := Ideal) X0 X2 X1 X3 (ix3 u v k) = colTileSup x y i (colAt j k) := by
  rw [colMaxBlock_apply]
  unfold colTileSup
  exact congrArg (Finset.fold max ⊥ · Finset.univ) (funext fun r => tile_eq_sim h r k)

end Cert.KernelIdeal.Tile

end
-- ==== Proof.KBlocks.lean ====
/-
  The blocks the pipeline hands the body at grid point `t` of the 4 × 16 grid: point `t` is row tile `t / 16` and
  column tile `t % 16`. The first operand's window is rows `2048·(t / 16) …` of the first argument, the second's rows
  `512·(t % 16) …` of the second argument, and the two scale columns are cut the same way; an entry of a block sits in
  its array at block index × block size + its coordinate inside the block.
-/
import proofs.«153582_j18339510354596_2_alg».proof.Proof.KHost
import proofs.«153582_j18339510354596_2_alg».proof.Proof.KTile

set_option maxRecDepth 16384

noncomputable section

namespace Cert.KernelIdeal.Blocks

open Cert.KernelIdeal Cert.KernelIdeal.Gen Cert.KernelIdeal.HostSide Cert.KernelIdeal.Tile Cert.CosineSpec
open Idealize.ShloMosaic Idealize.ShloMosaic.TcCoe Idealize.ShloMosaic.ValueIdx Idealize.SL.Sem

variable (m : (ℓ : Loc nD τ sig) → Buf (Elt Ideal) ℓ)

theorem N64 : cfg0.N = 64 := N_0

/-- The row tile of grid point `t`. -/
def rowTile (t : Fin cfg0.N) : Fin 4 := ⟨t.val / 16, by have := t.isLt; have := N64; omega⟩

/-- The column tile of grid point `t`. -/
def colTile (t : Fin cfg0.N) : Fin 16 := ⟨t.val % 16, by omega⟩

/-- The printed index maps, decided once over the grid's 64 points. -/
theorem idx_facts : ∀ t : Fin cfg0.N,
    win0_0.index t (0 : Fin 2) = t.val / 16 ∧ win0_0.index t (1 : Fin 2) = 0
    ∧ win0_1.index t (0 : Fin 2) = t.val % 16 ∧ win0_1.index t (1 : Fin 2) = 0
    ∧ win0_2.index t (0 : Fin 2) = t.val / 16 ∧ win0_2.index t (1 : Fin 2) = 0
    ∧ win0_3.index t (0 : Fin 2) = t.val % 16 ∧ win0_3.index t (1 : Fin 2) = 0
    ∧ win0_4.index t (0 : Fin 2) = t.val / 16 ∧ win0_4.index t (1 : Fin 2) = 0
    ∧ win0_5.index t (0 : Fin 3) = t.val / 16 ∧ win0_5.index t (1 : Fin 3) = 0 ∧ win0_5.index t (2 : Fin 3) = t.val % 16 :=
  (by decide +kernel : ∀ t : Fin grid0.N, _)

/-- The first argument as rows. -/
abbrev xr (c : Dev nD) : Rows := rowsOf (m ((c : Thread nD τ).loc main_arg0))
/-- The second argument as rows. -/
abbrev yr (c : Dev nD) : Rows := rowsOf (m ((c : Thread nD τ).loc main_arg1))

theorem left_read (c : Dev nD) (t : Fin cfg0.N) (r : Fin 2048) (d : Fin 768) :
    (iblk m c 0 t : Vec Ideal S2048x768 .f32) (ix2 r d) = xr m c (rowAt (rowTile t) r) d := by
  obtain ⟨e0, e1, -⟩ := idx_facts t
  show V m c main_arg0 (((cfg0.win 0).blk t).view.emb (ix2 r d)) = _
  rw [V_main_arg0]
  refine congrArg (m ((c : Thread nD τ).loc main_arg0)) (funext fun a => Fin.ext ?_)
  match a with
  | ⟨0, _⟩ => show win0_0.index t (0 : Fin 2) * 2048 + 1 * r.val = 2048 * (t.val / 16) + r.val; omega
  | ⟨1, _⟩ => show win0_0.index t (1 : Fin 2) * 768 + 1 * d.val = d.val; omega

theorem right_read (c : Dev nD) (t : Fin cfg0.N) (k : Fin 512) (d : Fin 768) :
    (iblk m c 1 t : Vec Ideal S512x768 .f32) (ix2 k d) = yr m c (colAt (colTile t) k) d := by
  obtain ⟨-, -, e0, e1, -⟩ := idx_facts t
  show V m c main_arg1 (((cfg0.win 1).blk t).view.emb (ix2 k d)) = _
  rw [V_main_arg1]
  refine congrArg (m ((c : Thread nD τ).loc main_arg1)) (funext fun a => Fin.ext ?_)
  match a with
  | ⟨0, _⟩ => show win0_1.index t (0 : Fin 2) * 512 + 1 * k.val = 512 * (t.val % 16) + k.val; omega
  | ⟨1, _⟩ => show win0_1.index t (1 : Fin 2) * 768 + 1 * d.val = d.val; omega

theorem leftScale_read (c : Dev nD) (t : Fin cfg0.N) (r : Fin 2048) :
    (iblk m c 2 t : Vec Ideal S2048x1 .f32) (ix2 r (0 : Fin 1)) = Ideal.div 1 (clipNorm (xr m c) (rowAt (rowTile t) r)) := by
  obtain ⟨-, -, -, -, e0, e1, -⟩ := idx_facts t
  have he : ((cfg0.win 2).blk t).view.emb (ix2 r (0 : Fin 1)) = ix2 (rowAt (rowTile t) r) (0 : Fin 1) :=
    funext fun a => Fin.ext (by
      match a with
      | ⟨0, _⟩ => show win0_2.index t (0 : Fin 2) * 2048 + 1 * r.val = 2048 * (t.val / 16) + r.val; omega
      | ⟨1, _⟩ => show win0_2.index t (1 : Fin 2) * 1 + 1 * 0 = 0; omega)
  show V m c main_v3 (((cfg0.win 2).blk t).view.emb (ix2 r (0 : Fin 1))) = _
  rw [he, V_main_v3, recipCol_apply]

theorem rightScale_read (c : Dev nD) (t : Fin cfg0.N) (k : Fin 512) :
    (iblk m c 3 t : Vec Ideal S512x1 .f32) (ix2 k (0 : Fin 1)) = Ideal.div 1 (clipNorm (yr m c) (colAt (colTile t) k)) := by
  obtain ⟨-, -, -, -, -, -, e0, e1, -⟩ := idx_facts t
  have he : ((cfg0.win 3).blk t).view.emb (ix2 k (0 : Fin 1)) = ix2 (colAt (colTile t) k) (0 : Fin 1) :=
    funext fun a => Fin.ext (by
      match a with
      | ⟨0, _⟩ => show win0_3.index t (0 : Fin 2) * 512 + 1 * k.val = 512 * (t.val % 16) + k.val; omega
      | ⟨1, _⟩ => show win0_3.index t (1 : Fin 2) * 1 + 1 * 0 = 0; omega)
  show V m c main_v7 (((cfg0.win 3).blk t).view.emb (ix2 k (0 : Fin 1))) = _
  rw [he, V_main_v7, recipCol_apply]

/-- At every grid point the body's four input blocks are the tile's rows and their scales. -/
theorem loaded (c : Dev nD) (t : Fin cfg0.N) :
    Loaded (xr m c) (yr m c) (rowTile t) (colTile t) (iblk m c 0 t) (iblk m c 2 t) (iblk m c 1 t) (iblk m c 3 t) :=
  ⟨left_read m c t, leftScale_read m c t, right_read m c t, rightScale_read m c t⟩

end Cert.KernelIdeal.Blocks

end
-- ==== Proof.KInv.lean ====
/-
  The running maximum across the grid.

  Grid point `n` is row tile `n / 16`, column tile `n % 16`. After point `n` the scratch column holds, at row `r`, the
  maximum of row `2048·(n / 16) + r` of the similarity matrix over the column tiles `0 … n % 16`: it restarts from the
  bottom column at a row tile's first column tile and is joined with one more tile's row maxima at every point —
  by induction on the point. So at a row tile's last column tile it is the row's maximum over all columns, and that
  is what the row-maximum block holds there. The column-maximum block at every point holds that tile's column maxima.
-/
import proofs.«153582_j18339510354596_2_alg».proof.Proof.KPoints
import proofs.«153582_j18339510354596_2_alg».proof.Proof.KBlocks

set_option maxRecDepth 16384

noncomputable section

namespace Cert.KernelIdeal.Running

open Cert.KernelIdeal Cert.KernelIdeal.Gen Cert.KernelIdeal.Points Cert.KernelIdeal.Blocks Cert.KernelIdeal.Tile
open Cert.KernelIdeal.Payload Cert.CosineSpec
open Idealize.ShloMosaic Idealize.ShloMosaic.TcCoe Idealize.ShloMosaic.ValueIdx Idealize.SL.Sem

variable (m : (ℓ : Loc nD τ sig) → Buf (Elt Ideal) ℓ)

/-- After grid point `n` the scratch column is the running row maximum up to the point's column tile. -/
theorem scratch_eq (c : Dev nD) : ∀ (n : ℕ) (hn : n < cfg0.N) (r : Fin 2048) (u : Fin 1),
    ((outsAt0 m c n hn).2.2 : Vec Ideal S2048x1 .f32) (ix2 r u)
      = rowSupUpTo (xr m c) (yr m c) (rowAt (rowTile ⟨n, hn⟩) r) (n % 16) := by
  intro n
  induction n with
  | zero =>
    intro hn r u
    have hA := (at_first m c ⟨0, hn⟩ (Nat.zero_mod _) (by show ¬(0 : ℕ) % 16 = 15; decide)).1
    have hct : colTile ⟨0, hn⟩ = (0 : Fin 16) := Fin.ext (Nat.zero_mod _)
    rw [show (outsAt0 m c 0 hn).2.2 = _ from hA, rowJoin_eq (loaded m c ⟨0, hn⟩), bottom_apply, hct, Nat.zero_mod,
      rowSupUpTo_zero]
  | succ k ih =>
    intro hn r u
    have hN := N64
    by_cases h0 : (k + 1) % 16 = 0
    · have h1 : ¬(k + 1) % 16 = 15 := by omega
      have hA := (at_first m c ⟨k + 1, hn⟩ h0 h1).1
      have hct : colTile ⟨k + 1, hn⟩ = (0 : Fin 16) := Fin.ext h0
      rw [show (outsAt0 m c (k + 1) hn).2.2 = _ from hA, rowJoin_eq (loaded m c ⟨k + 1, hn⟩), bottom_apply, hct, h0,
        rowSupUpTo_zero]
    · have hk : k < cfg0.N := by omega
      have hrow : rowAt (rowTile ⟨k, hk⟩) r = rowAt (rowTile ⟨k + 1, hn⟩) r :=
        congrArg (rowAt · r) (Fin.ext (by show k / 16 = (k + 1) / 16; omega))
      have hprev : ((outsAt0 m c k hk).2.2 : Vec Ideal S2048x1 .f32) (ix2 r u)
          = rowSupUpTo (xr m c) (yr m c) (rowAt (rowTile ⟨k + 1, hn⟩) r) (k % 16) := by
        rw [ih hk r u, hrow]
      have hj : k % 16 + 1 < 16 := by omega
      have hmod : (k + 1) % 16 = k % 16 + 1 := by omega
      have hct : colTile ⟨k + 1, hn⟩ = ⟨k % 16 + 1, hj⟩ := Fin.ext hmod
      have hS : (outsAt0 m c (k + 1) hn).2.2
          = k0_pay3 (iblk m c 0 ⟨k + 1, hn⟩) (iblk m c 2 ⟨k + 1, hn⟩) (iblk m c 1 ⟨k + 1, hn⟩) (iblk m c 3 ⟨k + 1, hn⟩)
              (outsAt0 m c k hk).2.2 := by
        by_cases h1 : (k + 1) % 16 = 15
        · exact (at_last m c ⟨k + 1, hn⟩ h0 h1).1
        · exact (at_middle m c ⟨k + 1, hn⟩ h0 h1).1
      rw [hS, rowJoin_eq (loaded m c ⟨k + 1, hn⟩), hprev, hct, hmod, rowSupUpTo_succ]

/-- At a row tile's last column tile the row-maximum block holds the rows' maxima over all columns. -/
theorem rowmax_eq (c : Dev nD) (t : Fin cfg0.N) (h1 : t.val % 16 = 15) (r : Fin 2048) (u : Fin 1) :
    ((outsAt0 m c t.val t.isLt).1 : Vec Ideal S2048x1 .f32) (ix2 r u)
      = rowSup (xr m c) (yr m c) (rowAt (rowTile t) r) := by
  have h0 : ¬t.val % 16 = 0 := by omega
  rw [(at_last m c t h0 h1).2.2, scratch_eq m c t.val t.isLt r u, h1, rowSupUpTo_last]

/-- At every point the column-maximum block holds the tile's column maxima. -/
theorem colmax_eq (c : Dev nD) (t : Fin cfg0.N) (u v : Fin 1) (k : Fin 512) :
    ((outsAt0 m c t.val t.isLt).2.1 : Vec Ideal S1x1x512 .f32) (ix3 u v k)
      = colTileSup (xr m c) (yr m c) (rowTile t) (colAt (colTile t) k) := by
  have h : (outsAt0 m c t.val t.isLt).2.1 = k0_pay4 (iblk m c 0 t) (iblk m c 2 t) (iblk m c 1 t) (iblk m c 3 t) := by
    by_cases h0 : t.val % 16 = 0
    · exact (at_first m c t h0 (by omega)).2
    · by_cases h1 : t.val % 16 = 15
      · exact (at_last m c t h0 h1).2.1
      · exact (at_middle m c t h0 h1).2
  rw [h, colMaxBlock_eq (loaded m c t)]

end Cert.KernelIdeal.Running

end
-- ==== Proof.KFinal.lean ====
/-
  The two result arrays after the run.

  Result 0 is an [8192, 1] column written back once per row tile, after the tile's last column tile: block `i` is rows
  `2048·i …`, and it holds those rows' maxima over all columns. Result 1 is a [4, 1, 8192] array written back at every
  grid point: point `(i, j)` writes the 512 entries `512·j …` of row `i`, the column maxima over row tile `i`. Every
  index of either array lies in exactly one written block, so each array ends as one function of the arguments.
-/
import proofs.«153582_j18339510354596_2_alg».proof.Proof.KInv
import Idealize.ShloMosaic.Lib.Pipeline.Value

set_option maxRecDepth 16384

noncomputable section

namespace Cert.KernelIdeal.Final

open Cert.KernelIdeal Cert.KernelIdeal.Gen Cert.KernelIdeal.Blocks Cert.KernelIdeal.Running Cert.CosineSpec
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-- The column of row maxima. -/
def rowMaxArr (c : Dev nD) : S8192x1.Idx → EReal := fun i => rowSup (xr m c) (yr m c) ⟨(i 0).val, (i 0).isLt⟩

/-- The per-row-tile column maxima. -/
def colMaxArr (c : Dev nD) : S4x1x8192.Idx → EReal :=
  fun i => colTileSup (xr m c) (yr m c) ⟨(i 0).val, (i 0).isLt⟩ ⟨(i 2).val, (i 2).isLt⟩

theorem rowMaxArr_apply (c : Dev nD) (n : Fin 8192) (u : Fin 1) : rowMaxArr m c (ix2 n u) = rowSup (xr m c) (yr m c) n := rfl

theorem colMaxArr_apply (c : Dev nD) (i : Fin 4) (u : Fin 1) (q : Fin 8192) :
    colMaxArr m c (ix3 i u q) = colTileSup (xr m c) (yr m c) i q := rfl

/-! ## Result 0 -/

/-- What a row tile's last point writes back is its block of the column of row maxima. -/
theorem flushed4_eq (c : Dev nD) (t : Fin cfg0.N) (hf : (cfg0.win 4).flush t = true) :
    (dats m 0 c).flushed 4 t = ((cfg0.win 4).blk t).view.read (Elt Ideal) (rowMaxArr m c) := by
  have h1 : t.val % 16 = 15 := (flush0_4 t).mp hf
  obtain ⟨-, -, -, -, -, -, -, -, e0, e1, -⟩ := idx_facts t
  show (cfg0.win 4).cut (grid0.coords t) ((dats m 0 c).after 4 t) = _
  rw [after0_4]
  funext y
  obtain ⟨r, u, rfl⟩ : ∃ (r : Fin 2048) (u : Fin 1), y = ix2 r u := ⟨y 0, y 1, eq_ix2 y⟩
  show ((outsAt0 m c t.val t.isLt).1 : Vec Ideal S2048x1 .f32) (ix2 r u)
    = rowMaxArr m c (((cfg0.win 4).blk t).view.emb (ix2 r u))
  rw [rowmax_eq m c t h1 r u]
  unfold rowMaxArr
  refine congrArg (rowSup (xr m c) (yr m c)) (Fin.ext ?_)
  show 2048 * (t.val / 16) + r.val = win0_4.index t (0 : Fin 2) * 2048 + 1 * r.val
  omega

/-- An index of result 0 is in point `t`'s block iff each coordinate is in the block's range on its axis. -/
theorem mem_blk4 (t : Fin cfg0.N) (i : S8192x1.Idx) :
    i ∈ ((cfg0.win 4).blk t).view.set ↔ ∀ a : Fin 2, win0_4.index t a * S2048x1.size a ≤ (i a).val
      ∧ (i a).val < win0_4.index t a * S2048x1.size a + S2048x1.size a := by
  show i ∈ ((View.whole main_v8_0).slice (win0_4.rect t)).set ↔ _
  rw [View.set_slice_whole, Rect.mem_set_unit]
  exact Iff.rfl

/-- Every index of result 0 is written by the last point of its row tile. -/
theorem cover4 (i : S8192x1.Idx) :
    ∃ t : Fin cfg0.N, (cfg0.win 4).flush t = true ∧ i ∈ ((cfg0.win 4).blk t).view.set := by
  have hN := N64
  have hi0 : (i 0).val < 8192 := (i 0).isLt
  have hi1 : (i 1).val < 1 := (i 1).isLt
  let t : Fin cfg0.N := ⟨16 * ((i 0).val / 2048) + 15, by omega⟩
  have ht : t.val = 16 * ((i 0).val / 2048) + 15 := rfl
  obtain ⟨-, -, -, -, -, -, -, -, e0, e1, -⟩ := idx_facts t
  refine ⟨t, (flush0_4 t).mpr (by omega), ?_⟩
  rw [mem_blk4]
  intro a
  match a with
  | ⟨0, _⟩ =>
    show win0_4.index t (0 : Fin 2) * 2048 ≤ (i 0).val ∧ (i 0).val < win0_4.index t (0 : Fin 2) * 2048 + 2048
    omega
  | ⟨1, _⟩ =>
    show win0_4.index t (1 : Fin 2) * 1 ≤ (i 1).val ∧ (i 1).val < win0_4.index t (1 : Fin 2) * 1 + 1
    omega

/-- Result 0 ends as the column of row maxima. -/
theorem final4 (c : Dev nD) : (dats m 0 c).arrAt 4 cfg0.N = rowMaxArr m c :=
  (dats m 0 c).arrAt_eq_of_cover 4 (rowMaxArr m c) (flushed4_eq m c) cover4

/-! ## Result 1 -/

/-- What every point writes back is its block of the per-row-tile column maxima. -/
theorem flushed5_eq (c : Dev nD) (t : Fin cfg0.N) :
    (dats m 0 c).flushed 5 t = ((cfg0.win 5).blk t).view.read (Elt Ideal) (colMaxArr m c) := by
  have hN := N64
  have htl := t.isLt
  obtain ⟨-, -, -, -, -, -, -, -, -, -, e0, e1, e2⟩ := idx_facts t
  show (cfg0.win 5).cut (grid0.coords t) ((dats m 0 c).after 5 t) = _
  rw [after0_5]
  funext y
  obtain ⟨u, v, k, rfl⟩ : ∃ (u v : Fin 1) (k : Fin 512), y = ix3 u v k := ⟨y 0, y 1, y 2, eq_ix3 y⟩
  show ((outsAt0 m c t.val t.isLt).2.1 : Vec Ideal S1x1x512 .f32) (ix3 u v k)
    = colMaxArr m c (((cfg0.win 5).blk t).view.emb (ix3 u v k))
  rw [colmax_eq m c t u v k]
  unfold colMaxArr
  have hu : u.val = 0 := by omega
  have ha : rowTile t = ⟨((((cfg0.win 5).blk t).view.emb (ix3 u v k)) 0).val, ((((cfg0.win 5).blk t).view.emb (ix3 u v k)) 0).isLt⟩ :=
    Fin.ext (by show t.val / 16 = win0_5.index t (0 : Fin 3) * 1 + 1 * u.val; omega)
  have hb : colAt (colTile t) k = ⟨((((cfg0.win 5).blk t).view.emb (ix3 u v k)) 2).val, ((((cfg0.win 5).blk t).view.emb (ix3 u v k)) 2).isLt⟩ :=
    Fin.ext (by show 512 * (t.val % 16) + k.val = win0_5.index t (2 : Fin 3) * 512 + 1 * k.val; omega)
  rw [ha, hb]

/-- An index of result 1 is in point `t`'s block iff each coordinate is in the block's range on its axis. -/
theorem mem_blk5 (t : Fin cfg0.N) (i : S4x1x8192.Idx) :
    i ∈ ((cfg0.win 5).blk t).view.set ↔ ∀ a : Fin 3, win0_5.index t a * S1x1x512.size a ≤ (i a).val
      ∧ (i a).val < win0_5.index t a * S1x1x512.size a + S1x1x512.size a := by
  show i ∈ ((View.whole main_v8_1).slice (win0_5.rect t)).set ↔ _
  rw [View.set_slice_whole, Rect.mem_set_unit]
  exact Iff.rfl

/-- Every index of result 1 is written by the point of its row tile and column tile. -/
theorem cover5 (i : S4x1x8192.Idx) :
    ∃ t : Fin cfg0.N, (cfg0.win 5).flush t = true ∧ i ∈ ((cfg0.win 5).blk t).view.set := by
  have hN := N64
  have hi0 : (i 0).val < 4 := (i 0).isLt
  have hi1 : (i 1).val < 1 := (i 1).isLt
  have hi2 : (i 2).val < 8192 := (i 2).isLt
  let t : Fin cfg0.N := ⟨16 * (i 0).val + (i 2).val / 512, by omega⟩
  have ht : t.val = 16 * (i 0).val + (i 2).val / 512 := rfl
  obtain ⟨-, -, -, -, -, -, -, -, -, -, e0, e1, e2⟩ := idx_facts t
  refine ⟨t, flush0_5 t, ?_⟩
  rw [mem_blk5]
  intro a
  match a with
  | ⟨0, _⟩ =>
    show win0_5.index t (0 : Fin 3) * 1 ≤ (i 0).val ∧ (i 0).val < win0_5.index t (0 : Fin 3) * 1 + 1
    omega
  | ⟨1, _⟩ =>
    show win0_5.index t (1 : Fin 3) * 1 ≤ (i 1).val ∧ (i 1).val < win0_5.index t (1 : Fin 3) * 1 + 1
    omega
  | ⟨2, _⟩ =>
    show win0_5.index t (2 : Fin 3) * 512 ≤ (i 2).val ∧ (i 2).val < win0_5.index t (2 : Fin 3) * 512 + 512
    omega

/-- Result 1 ends as the per-row-tile column maxima. -/
theorem final5 (c : Dev nD) : (dats m 0 c).arrAt 5 cfg0.N = colMaxArr m c :=
  (dats m 0 c).arrAt_eq_of_cover 5 (colMaxArr m c) (fun t _ => flushed5_eq m c t) cover5

end Cert.KernelIdeal.Final

end
-- ==== Proof.KTail.lean ====
/-
  The kernel program's host lines after the region, read as the reference's scalar tail.

  The region leaves two arrays: result 0, [8192, 1], holds the row maxima; result 1, [4, 1, 8192], holds for each of
  the four row tiles the column maxima over that tile. The host reads result 0 as a vector, reads result 1 as
  [4, 8192] and maximises it over its four rows from -∞, and sends each of the two vectors through the same
  operations, with the same literals, as the reference's tail. So each result of the program is that one tail,
  applied to the vector of row maxima and to the vector of column maxima; the tail itself is never opened.
-/
import proofs.«153582_j18339510354596_2_alg».proof.Proof.Gen.KernelIdeal.Frame
import proofs.«153582_j18339510354596_2_alg».proof.Proof.RefSide
import Idealize.ShloMosaic.Lib.StableHlo.Run
import Idealize.ShloMosaic.Lib.Pipeline.Value

set_option maxRecDepth 16384

noncomputable section

namespace Cert.KernelIdeal.TailSide

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ)

/-- The row maxima the host reads off result 0: the [8192, 1] array as a vector. -/
abbrev rowMaxVec (c : Dev nD) : FVec Ideal S8192 .f32 :=
  shapeCast S8192 ((dats m 0 c).arrAt 4 cfg0.N) shapeCasts_S8192x1_S8192

/-- The column maxima the host takes from result 1: the [4, 1, 8192] array as [4, 8192], maximised over its 4 rows
    from -∞. -/
abbrev colMaxVec (c : Dev nD) : FVec Ideal S8192 .f32 :=
  Host.reduce (FloatOps.maximumf (F := Ideal) (φ := .f32))
    (shapeCast S4x8192 ((dats m 0 c).arrAt 5 cfg0.N) shapeCasts_S4x1x8192_S4x8192)
    (constant (F := Ideal) S_ .f32 0xFF800000#32) reducesTo_S4x8192_S8192_d0 h_S_

/-! ## What the host reads after the region -/

/-- After the region, the host's view of result 0 is the array the region left. -/
theorem withArrays_v8_0 (c : Dev nD) :
    Pipeline.withArrays (cfgs 0).spec c (V0 m c) (fun w => (dats m 0 c).arrAt w (cfgs 0).N) (Proc.devRef .tc main_v8_0)
      = (dats m 0 c).arrAt 4 cfg0.N :=
  Pipeline.withArrays_arr spec0 launch0.win.arr_inj c _ _ 4

/-- After the region, the host's view of result 1 is the array the region left. -/
theorem withArrays_v8_1 (c : Dev nD) :
    Pipeline.withArrays (cfgs 0).spec c (V0 m c) (fun w => (dats m 0 c).arrAt w (cfgs 0).N) (Proc.devRef .tc main_v8_1)
      = (dats m 0 c).arrAt 5 cfg0.N :=
  Pipeline.withArrays_arr spec0 launch0.win.arr_inj c _ _ 5

/-! ## The two results: the reference's scalar tail, of the two vectors of maxima -/

/-- The first result is the shared tail of the row maxima. -/
theorem tail_v41 (c : Dev nD) :
    Pipeline.afterTail₀ cfgs (dats m) 0 (V0 m) [hostOps1] c main_v41 = Cert.RefSide.tail (rowMaxVec m c) := by
  unfold Pipeline.afterTail₀
  show StableHlo.after hostOps1 _ (Proc.devRef .tc main_v41) = _
  after_results_simp
  rw [withArrays_v8_0]
  rfl

/-- The second result is the same tail, of the column maxima. -/
theorem tail_v47 (c : Dev nD) :
    Pipeline.afterTail₀ cfgs (dats m) 0 (V0 m) [hostOps1] c main_v47 = Cert.RefSide.tail (colMaxVec m c) := by
  unfold Pipeline.afterTail₀
  show StableHlo.after hostOps1 _ (Proc.devRef .tc main_v47) = _
  after_results_simp
  rw [withArrays_v8_1]
  rfl

/-- The two results are buffers the region does not stage. -/
theorem v41_mem_rest : main_v41 ∈ Pipeline.restRefs sig (cfgs 0).spec :=
  Pipeline.mem_restRefs_of main_v41 rfl (by decide)

theorem v47_mem_rest : main_v47 ∈ Pipeline.restRefs sig (cfgs 0).spec :=
  Pipeline.mem_restRefs_of main_v47 rfl (by decide)

/-! ## The two vectors of maxima, entry by entry -/

/-- A [4, 1, 8192] array read as [4, 8192] and maximised over its 4 rows from -∞, at column q: the maximum of the
    four entries of that column. -/
theorem reduceMax4_apply (A : S4x1x8192.Idx → EReal) (q : Fin 8192) :
    Host.reduce (FloatOps.maximumf (F := Ideal) (φ := .f32)) (shapeCast S4x8192 A shapeCasts_S4x1x8192_S4x8192)
        (constant (F := Ideal) S_ .f32 0xFF800000#32) reducesTo_S4x8192_S8192_d0 h_S_ (ValueIdx.ix1 q)
      = (Finset.univ : Finset (Fin 4)).fold max ⊥ (fun i => A (ValueIdx.ix3 i (0 : Fin 1) q)) := by
  have hR : S4x8192.Reduces [0] S8192 := by decide
  rw [Host.reduce_eq_fold_single (FloatOps.maximumf (F := Ideal) (φ := .f32)) _ _ reducesTo_S4x8192_S8192_d0 hR h_S_
      (ValueIdx.ix1 q), ValueIdx.constant_apply, Cert.CosineSpec.negInf_eq_bot]
  have key : ∀ i : Fin 4, (shapeCast S4x8192 A shapeCasts_S4x1x8192_S4x8192 ∘ hR.lift (ValueIdx.ix1 q)) i
      = A (ValueIdx.ix3 i (0 : Fin 1) q) := by
    intro i
    show shapeCast S4x8192 A shapeCasts_S4x1x8192_S4x8192 (hR.lift (ValueIdx.ix1 q) i) = _
    refine shapeCast_apply A _ _ _ ?_
    rw [Shape.rowMajor_val_three, Shape.rowMajor_val_two]
    show (i.val * 1 + 0) * 8192 + q.val = i.val * 8192 + q.val
    omega
  exact Finset.fold_congr fun i _ => key i

/-- An entry of colMaxVec: the maximum over the four row tiles. -/
theorem colMaxVec_apply (c : Dev nD) (q : Fin 8192) :
    colMaxVec m c (ValueIdx.ix1 q) = (Finset.univ : Finset (Fin 4)).fold (β := EReal) max ⊥
      (fun i => ((dats m 0 c).arrAt 5 cfg0.N : S4x1x8192.Idx → EReal) (ValueIdx.ix3 i (0 : Fin 1) q)) :=
  reduceMax4_apply ((dats m 0 c).arrAt 5 cfg0.N) q

/-- An [8192, 1] array read as a vector, at n: its entry (n, 0). -/
theorem castRow_apply (A : S8192x1.Idx → EReal) (n : Fin 8192) :
    shapeCast S8192 A shapeCasts_S8192x1_S8192 (ValueIdx.ix1 n) = A (ValueIdx.ix2 n (0 : Fin 1)) :=
  shapeCast_apply A _ _ _ (by
    rw [Shape.rowMajor_val_two, Shape.rowMajor_val_one]
    show n.val * 1 + 0 = n.val
    omega)

/-- An entry of rowMaxVec. -/
theorem rowMaxVec_apply (c : Dev nD) (n : Fin 8192) :
    rowMaxVec m c (ValueIdx.ix1 n) = ((dats m 0 c).arrAt 4 cfg0.N : S8192x1.Idx → EReal) (ValueIdx.ix2 n (0 : Fin 1)) :=
  castRow_apply ((dats m 0 c).arrAt 4 cfg0.N) n

end Cert.KernelIdeal.TailSide

end
-- ==== Proof.KRun.lean ====
/-
  The kernel program's whole run, with its two results stated in the reference's terms.

  After the region, result 0 holds in row n the maximum of sim n · over all columns, and result 1 holds, for each of
  the four row tiles i and each column q, the maximum of sim · q over the rows of tile i. Read as a vector, result 0
  is therefore the reference's vector of row maxima of the same arguments; and since a column's maximum is the maximum
  over the four row tiles of the tiles' maxima, the host's maximum of result 1 over its four rows is the reference's
  vector of column maxima. Both programs then apply the same scalar tail, so the kernel's two results are that tail of
  the reference's two vectors of maxima; the argument arrays are inputs of the region and end as they began.
-/
import proofs.«153582_j18339510354596_2_alg».proof.Proof.KFinal
import proofs.«153582_j18339510354596_2_alg».proof.Proof.KTail
import proofs.«153582_j18339510354596_2_alg».proof.Proof.RefSide

set_option maxRecDepth 16384

noncomputable section

namespace Cert.KernelIdeal.RunSide

open Cert.KernelIdeal Cert.KernelIdeal.Gen Cert.KernelIdeal.Blocks Cert.KernelIdeal.Final Cert.KernelIdeal.TailSide Cert.CosineSpec
open Idealize.ShloMosaic Idealize.ShloMosaic.TcCoe Idealize.ShloMosaic.ValueIdx Idealize.SL.Sem

variable (m : (ℓ : Loc nD τ sig) → Buf (Elt Ideal) ℓ) (ρ : Dev nD → PrngReg)

/-- The vector of row maxima the kernel's host tail starts from is the reference's vector of row maxima of the same
    arguments. -/
theorem rowMaxVec_eq (c : Dev nD) :
    rowMaxVec m c = Cert.ReferenceIdeal.Read.val_main_v9 (F := Ideal) (m ((c.tc : Thread nD τ).loc main_arg0))
      (m ((c.tc : Thread nD τ).loc main_arg1)) := by
  funext i
  obtain ⟨n, rfl⟩ : ∃ n : Fin 8192, i = ix1 n := ⟨i 0, eq_ix1 i⟩
  rw [rowMaxVec_apply, final4, rowMaxArr_apply, Cert.RefSide.v9_apply]

/-- And the vector of column maxima is the reference's: a column's maximum is the maximum of its four row tiles'. -/
theorem colMaxVec_eq (c : Dev nD) :
    colMaxVec m c = Cert.ReferenceIdeal.Read.val_main_v10 (F := Ideal) (m ((c.tc : Thread nD τ).loc main_arg0))
      (m ((c.tc : Thread nD τ).loc main_arg1)) := by
  funext i
  obtain ⟨q, rfl⟩ : ∃ q : Fin 8192, i = ix1 q := ⟨i 0, eq_ix1 i⟩
  rw [colMaxVec_apply, final5, Cert.RefSide.v10_apply, colSup_eq_fold_tiles]
  exact Finset.fold_congr fun i _ => colMaxArr_apply m c i 0 q

/-- The kernel program's run: both results are the shared tail of the reference's maxima of the same arguments; the
    arguments end unchanged. -/
theorem run : θ_run defs (onTc (τ := τ) (main (F := Ideal))) ⟨m, fun _ => 0, ρ⟩ fun r => ∀ c : Dev nD,
      r.2.mem ((c.tc : Thread nD τ).loc main_v41) = Cert.RefSide.tail (Cert.ReferenceIdeal.Read.val_main_v9 (F := Ideal) (m ((c.tc : Thread nD τ).loc main_arg0)) (m ((c.tc : Thread nD τ).loc main_arg1)))
      ∧ r.2.mem ((c.tc : Thread nD τ).loc main_v47) = Cert.RefSide.tail (Cert.ReferenceIdeal.Read.val_main_v10 (F := Ideal) (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨((h c).2 main_v41 v41_mem_rest).trans ((tail_v41 m c).trans (congrArg Cert.RefSide.tail (rowMaxVec_eq m c))),
      ((h c).2 main_v47 v47_mem_rest).trans ((tail_v47 m c).trans (congrArg Cert.RefSide.tail (colMaxVec_eq m c))),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩) (run_main m ρ)

end Cert.KernelIdeal.RunSide

end
-- ==== Proof.lean ====
/-
  Pairwise cosine similarity of two arrays of 8192 rows of length 768, the best match of every row and of every
  column, and an entropy-like sum of each vector of best matches.

  Both programs normalise each row by its clipped length `max ε ‖row‖`, take all inner products of normalised rows,
  the maximum of each row and of each column of that 8192 × 8192 matrix, and send each vector of maxima through one
  scalar tail. They differ in three ways, none of which changes a value over the extended reals:
    • one divides each entry by the clipped length, the other multiplies it by the reciprocal `1 / max ε ‖row‖`
      computed once per row: the clipped length is at least `ε > 0`, and off zero the product with the reciprocal is
      the quotient on every extended real, so no finiteness of the inputs is used;
    • one forms the matrix whole, the other tile by tile (2048 rows by 512 columns), each tile a contraction into a
      zero accumulator of blocks whose change of float format is the identity here;
    • one takes each maximum whole; the other keeps a running row maximum across the 16 column tiles of a row tile,
      starting from the bottom element, and takes each column's maximum first over the rows of a row tile and then over
      the 4 row tiles: `max` is associative, commutative and idempotent, and a maximum is determined by its upper
      bounds.
  So the two vectors of maxima agree entry by entry, and the shared tail is carried unopened.
  The three frames are the programs' runs with the results dropped; the idealisation rewrote nothing.
-/
import proofs.«153582_j18339510354596_2_alg».proof.Defs
import proofs.«153582_j18339510354596_2_alg».proof.Proof.Gen.Kernel
import proofs.«153582_j18339510354596_2_alg».proof.Proof.Gen.Kernel.Skeleton
import proofs.«153582_j18339510354596_2_alg».proof.Proof.Gen.Kernel.Launch
import proofs.«153582_j18339510354596_2_alg».proof.Proof.Gen.Kernel.Points
import proofs.«153582_j18339510354596_2_alg».proof.Proof.Gen.Kernel.Frame
import proofs.«153582_j18339510354596_2_alg».proof.Proof.Gen.KernelIdeal
import proofs.«153582_j18339510354596_2_alg».proof.Proof.Gen.KernelIdeal.Skeleton
import proofs.«153582_j18339510354596_2_alg».proof.Proof.Gen.KernelIdeal.Launch
import proofs.«153582_j18339510354596_2_alg».proof.Proof.Gen.KernelIdeal.Points
import proofs.«153582_j18339510354596_2_alg».proof.Proof.Gen.KernelIdeal.Frame
import proofs.«153582_j18339510354596_2_alg».proof.Proof.Gen.ReferenceIdeal
import proofs.«153582_j18339510354596_2_alg».proof.Proof.Gen.ReferenceIdeal.Run
import proofs.«153582_j18339510354596_2_alg».proof.Proof.Gen.ReferenceIdeal.Read
import proofs.«153582_j18339510354596_2_alg».proof.Proof.Gen.Pre_finite_inputs
import proofs.«153582_j18339510354596_2_alg».proof.Proof.RefSide
import proofs.«153582_j18339510354596_2_alg».proof.Proof.KRun
import Idealize.ShloMosaic.Adequacy
import Idealize.ShloMosaic.Init

noncomputable section

namespace Cert.Proof

open Idealize.ShloMosaic Idealize.SL.Sem

/-- The printed kernel program runs and leaves its arguments unchanged. -/
theorem frame_k : Cert.frame_Kernel := fun m ρ _ => Cert.Kernel.Gen.frame m ρ

/-- So does its reading over the extended reals. -/
theorem frame_ki : Cert.frame_KernelIdeal := fun m ρ _ => Cert.KernelIdeal.Gen.frame m ρ

/-- And the reference: its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- Reading the kernel program over the extended reals rewrote no operation. -/
theorem preserves : Cert.preserves_Kernel_KernelIdeal := trivial

/-- From arguments that agree, both programs end with each result at the shared tail of the same vector of maxima:
    the reference's own row maxima and column maxima of those arguments. -/
theorem algebraic : Cert.algebraic_KernelIdeal_ReferenceIdeal := by
  intro m ρ m' ρ' _ hagree
  refine ⟨_, _, Cert.KernelIdeal.RunSide.run m ρ, ?_⟩
  refine (θ_run Cert.ReferenceIdeal.defs _ _).mono (fun _ h c => ⟨?_, ?_, (h c).2.2.1, (h c).2.2.2⟩)
    (Cert.ReferenceIdeal.Value.run (F := Ideal) m' ρ')
  · rw [(h c).1, Cert.ReferenceIdeal.Read.val_main_v40_eq, Cert.RefSide.v40_eq_tail, (hagree c).1, (hagree c).2]
  · rw [(h c).2.1, Cert.ReferenceIdeal.Read.val_main_v46_eq, Cert.RefSide.v46_eq_tail, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
